-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4x512x256 : Shape := ⟨3, ![4, 512, 256]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4x512x256 : S_.BroadcastsInDim S4x512x256 (![] : Fin 0 → Fin S4x512x256.rank)
  reducesTo_S4x512x256_S_d0_1_2 : S4x512x256.ReducesTo [0, 1, 2] S_

variable [Facts]

def fn_part1 {F : FTy → Type} [FloatOps F] (main_v13 : IVec S_ 1) (main_v16 : IVec S4x512x256 1) : IVec S_ 1 :=
  let main_c_5 : IVec S_ 1 := constantI S_ 1 1#1
  let main_v17 : IVec S_ 1 := (fun x v => Host.reduce IntOp.andi x v reducesTo_S4x512x256_S_d0_1_2 h_S_) main_v16 main_c_5
  let main_v18 : IVec S_ 1 := andi main_v13 main_v17
  main_v18

def fn {F : FTy → Type} [FloatOps F] (main_arg0 : FVec F S16384x256 .f32) (main_arg1 : FVec F S16384x256 .f32) (main_arg2 : FVec F S4x512x256 .f32) (main_arg3 : FVec F S4x512x256 .f32) (main_arg4 : IVec S16384 32) (main_arg5 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S4x512x256 .f32 := Host.absf main_arg2
  let main_cst_2 : FVec F S_ .f32 := constant S_ .f32 0x7F800000#32
  let main_v10 : FVec F S4x512x256 .f32 := broadcastInDim S4x512x256 ![] bcast_S_S4x512x256 main_cst_2
  let main_v11 : IVec S4x512x256 1 := cmpf .olt main_v9 main_v10
  let main_c_3 : IVec S_ 1 := constantI S_ 1 1#1
  let main_v12 : IVec S_ 1 := (fun x v => Host.reduce IntOp.andi x v reducesTo_S4x512x256_S_d0_1_2 h_S_) main_v11 main_c_3
  let main_v13 : IVec S_ 1 := andi main_v8 main_v12
  let main_v14 : FVec F S4x512x256 .f32 := Host.absf main_arg3
  let main_cst_4 : FVec F S_ .f32 := constant S_ .f32 0x7F800000#32
  let main_v15 : FVec F S4x512x256 .f32 := broadcastInDim S4x512x256 ![] bcast_S_S4x512x256 main_cst_4
  let main_v16 : IVec S4x512x256 1 := cmpf .olt main_v14 main_v15
  fn_part1 (F := F) main_v13 main_v16
-- ==== Kernel.lean ====
abbrev S16384x256 : Shape := ⟨2, ![16384, 256]⟩
abbrev S4x512x256 : Shape := ⟨3, ![4, 512, 256]⟩
abbrev S16384 : Shape := ⟨1, ![16384]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4x256 : Shape := ⟨2, ![4, 256]⟩
abbrev S4x16384 : Shape := ⟨2, ![4, 16384]⟩
abbrev S4096x256 : Shape := ⟨2, ![4096, 256]⟩
abbrev S4x4096 : Shape := ⟨2, ![4, 4096]⟩
abbrev S4096 : Shape := ⟨1, ![4096]⟩
abbrev S4096x1 : Shape := ⟨2, ![4096, 1]⟩
abbrev S16384x4 : Shape := ⟨2, ![16384, 4]⟩
abbrev S4 : Shape := ⟨1, ![4]⟩
abbrev S1x4 : Shape := ⟨2, ![1, 4]⟩
abbrev S16384x1 : Shape := ⟨2, ![16384, 1]⟩

abbrev nBuf : Space → Nat
  | .hbm => 191
  | .vmem => 10
  | .smem => 0
  | _ => 0

abbrev hbmTy0_0 (i : Nat) : BufTy := match i % 128 with
  | 0 => ⟨S16384x256, .f32⟩
  | 1 => ⟨S16384x256, .f32⟩
  | 2 => ⟨S4x512x256, .f32⟩
  | 3 => ⟨S4x512x256, .f32⟩
  | 4 => ⟨S16384, .i32⟩
  | 5 => ⟨S16384, .i32⟩
  | 6 => ⟨S2048x256, .f32⟩
  | 7 => ⟨S2048x256, .f32⟩
  | 8 => ⟨S_, .f32⟩
  | 9 => ⟨S2048, .f32⟩
  | 10 => ⟨S2048x1, .f32⟩
  | 11 => ⟨S2048x1, .f32⟩
  | 12 => ⟨S_, .f32⟩
  | 13 => ⟨S2048x1, .f32⟩
  | 14 => ⟨S2048x1, .f32⟩
  | 15 => ⟨S2048x256, .f32⟩
  | 16 => ⟨S2048x256, .f32⟩
  | 17 => ⟨S4x512x256, .f32⟩
  | 18 => ⟨S_, .f32⟩
  | 19 => ⟨S4x256, .f32⟩
  | 20 => ⟨S_, .f32⟩
  | 21 => ⟨S4x256, .f32⟩
  | 22 => ⟨S4x256, .f32⟩
  | 23 => ⟨S2048x256, .f32⟩
  | 24 => ⟨S2048x256, .f32⟩
  | 25 => ⟨S_, .f32⟩
  | 26 => ⟨S2048, .f32⟩
  | 27 => ⟨S2048x1, .f32⟩
  | 28 => ⟨S2048x1, .f32⟩
  | 29 => ⟨S_, .f32⟩
  | 30 => ⟨S2048x1, .f32⟩
  | 31 => ⟨S2048x1, .f32⟩
  | 32 => ⟨S2048x256, .f32⟩
  | 33 => ⟨S2048x256, .f32⟩
  | 34 => ⟨S4x512x256, .f32⟩
  | 35 => ⟨S_, .f32⟩
  | 36 => ⟨S4x256, .f32⟩
  | 37 => ⟨S_, .f32⟩
  | 38 => ⟨S4x256, .f32⟩
  | 39 => ⟨S4x256, .f32⟩
  | 40 => ⟨S4x16384, .f32⟩
  | 41 => ⟨S4x16384, .f32⟩
  | 42 => ⟨S16384x4, .f32⟩
  | 43 => ⟨S16384x4, .f32⟩
  | 44 => ⟨S4, .i32⟩
  | 45 => ⟨S1x4, .i32⟩
  | 46 => ⟨S16384x1, .i32⟩
  | 47 => ⟨S16384x4, .i32⟩
  | 48 => ⟨S16384x4, .i32⟩
  | 49 => ⟨S16384x4, .i1⟩
  | 50 => ⟨S_, .f32⟩
  | 51 => ⟨S_, .f32⟩
  | 52 => ⟨S16384x4, .f32⟩
  | 53 => ⟨S16384x4, .f32⟩
  | 54 => ⟨S_, .f32⟩
  | 55 => ⟨S16384, .f32⟩
  | 56 => ⟨S_, .f32⟩
  | 57 => ⟨S_, .f32⟩
  | 58 => ⟨S16384x4, .f32⟩
  | 59 => ⟨S16384x4, .f32⟩
  | 60 => ⟨S_, .f32⟩
  | 61 => ⟨S16384, .f32⟩
  | 62 => ⟨S_, .f32⟩
  | 63 => ⟨S16384, .f32⟩
  | 64 => ⟨S16384, .f32⟩
  | 65 => ⟨S_, .f32⟩
  | 66 => ⟨S16384, .f32⟩
  | 67 => ⟨S_, .f32⟩
  | 68 => ⟨S16384, .f32⟩
  | 69 => ⟨S16384, .f32⟩
  | 70 => ⟨S16384x4, .i32⟩
  | 71 => ⟨S16384x4, .i32⟩
  | 72 => ⟨S16384x4, .i1⟩
  | 73 => ⟨S16384x4, .i32⟩
  | 74 => ⟨S_, .i32⟩
  | 75 => ⟨S16384, .i32⟩
  | 76 => ⟨S16384, .f32⟩
  | 77 => ⟨S16384, .i32⟩
  | 78 => ⟨S_, .i32⟩
  | 79 => ⟨S16384, .i32⟩
  | 80 => ⟨S16384, .i32⟩
  | 81 => ⟨S16384, .f32⟩
  | 82 => ⟨S_, .f32⟩
  | 83 => ⟨S_, .f32⟩
  | 84 => ⟨S16384x4, .f32⟩
  | 85 => ⟨S16384x4, .f32⟩
  | 86 => ⟨S_, .f32⟩
  | 87 => ⟨S16384, .f32⟩
  | 88 => ⟨S16384, .f32⟩
  | 89 => ⟨S_, .f32⟩
  | 90 => ⟨S_, .f32⟩
  | 91 => ⟨S16384x4, .f32⟩
  | 92 => ⟨S16384x4, .f32⟩
  | 93 => ⟨S_, .f32⟩
  | 94 => ⟨S16384, .f32⟩
  | 95 => ⟨S16384, .f32⟩
  | 96 => ⟨S_, .i32⟩
  | 97 => ⟨S16384, .i32⟩
  | 98 => ⟨S16384, .i1⟩
  | 99 => ⟨S16384, .i1⟩
  | 100 => ⟨S_, .i32⟩
  | 101 => ⟨S16384, .i32⟩
  | 102 => ⟨S16384, .i1⟩
  | 103 => ⟨S16384, .i1⟩
  | 104 => ⟨S16384, .f32⟩
  | 105 => ⟨S16384, .f32⟩
  | 106 => ⟨S_, .f32⟩
  | 107 => ⟨S_, .f32⟩
  | 108 => ⟨S16384, .f32⟩
  | 109 => ⟨S16384, .f32⟩
  | 110 => ⟨S16384, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S4, .i32⟩
  | 118 => ⟨S1x4, .i32⟩
  | 119 => ⟨S16384x1, .i32⟩
  | 120 => ⟨S16384x4, .i32⟩
  | 121 => ⟨S16384x4, .i32⟩
  | 122 => ⟨S16384x4, .i1⟩
  | 123 => ⟨S_, .f32⟩
  | 124 => ⟨S_, .f32⟩
  | 125 => ⟨S16384x4, .f32⟩
  | 126 => ⟨S16384x4, .f32⟩
  | 127 => ⟨S_, .f32⟩
  | _ => ⟨S16384x256, .f32⟩

abbrev hbmTy0_1 (i : Nat) : BufTy := match i % 128 with
  | 0 => ⟨S16384, .f32⟩
  | 1 => ⟨S_, .f32⟩
  | 2 => ⟨S_, .f32⟩
  | 3 => ⟨S16384x4, .f32⟩
  | 4 => ⟨S16384x4, .f32⟩
  | 5 => ⟨S_, .f32⟩
  | 6 => ⟨S16384, .f32⟩
  | 7 => ⟨S_, .f32⟩
  | 8 => ⟨S16384, .f32⟩
  | 9 => ⟨S16384, .f32⟩
  | 10 => ⟨S_, .f32⟩
  | 11 => ⟨S16384, .f32⟩
  | 12 => ⟨S_, .f32⟩
  | 13 => ⟨S16384, .f32⟩
  | 14 => ⟨S16384, .f32⟩
  | 15 => ⟨S16384x4, .i32⟩
  | 16 => ⟨S16384x4, .i32⟩
  | 17 => ⟨S16384x4, .i1⟩
  | 18 => ⟨S16384x4, .i32⟩
  | 19 => ⟨S_, .i32⟩
  | 20 => ⟨S16384, .i32⟩
  | 21 => ⟨S16384, .f32⟩
  | 22 => ⟨S16384, .i32⟩
  | 23 => ⟨S_, .i32⟩
  | 24 => ⟨S16384, .i32⟩
  | 25 => ⟨S16384, .i32⟩
  | 26 => ⟨S16384, .f32⟩
  | 27 => ⟨S_, .f32⟩
  | 28 => ⟨S_, .f32⟩
  | 29 => ⟨S16384x4, .f32⟩
  | 30 => ⟨S16384x4, .f32⟩
  | 31 => ⟨S_, .f32⟩
  | 32 => ⟨S16384, .f32⟩
  | 33 => ⟨S16384, .f32⟩
  | 34 => ⟨S_, .f32⟩
  | 35 => ⟨S_, .f32⟩
  | 36 => ⟨S16384x4, .f32⟩
  | 37 => ⟨S16384x4, .f32⟩
  | 38 => ⟨S_, .f32⟩
  | 39 => ⟨S16384, .f32⟩
  | 40 => ⟨S16384, .f32⟩
  | 41 => ⟨S_, .i32⟩
  | 42 => ⟨S16384, .i32⟩
  | 43 => ⟨S16384, .i1⟩
  | 44 => ⟨S16384, .i1⟩
  | 45 => ⟨S_, .i32⟩
  | 46 => ⟨S16384, .i32⟩
  | 47 => ⟨S16384, .i1⟩
  | 48 => ⟨S16384, .i1⟩
  | 49 => ⟨S16384, .f32⟩
  | 50 => ⟨S16384, .f32⟩
  | 51 => ⟨S_, .f32⟩
  | 52 => ⟨S_, .f32⟩
  | 53 => ⟨S16384, .f32⟩
  | 54 => ⟨S16384, .f32⟩
  | 55 => ⟨S16384, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4x256, .f32⟩
  | .local _ .vmem, ⟨5, _⟩ => ⟨S4x256, .f32⟩
  | .local _ .vmem, ⟨6, _⟩ => ⟨S4x4096, .f32⟩
  | .local _ .vmem, ⟨7, _⟩ => ⟨S4x4096, .f32⟩
  | .local _ .vmem, ⟨8, _⟩ => ⟨S4x4096, .f32⟩
  | .local _ .vmem, ⟨9, _⟩ => ⟨S4x4096, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_call2_v0 : Ref sig .tc := ⟨.hbm, 83, rfl⟩
abbrev main_call2_v1 : Ref sig .tc := ⟨.hbm, 84, rfl⟩
abbrev main_v54 : Ref sig .tc := ⟨.hbm, 85, rfl⟩
abbrev main_cst_16 : Ref sig .tc := ⟨.hbm, 86, rfl⟩
abbrev main_v55 : Ref sig .tc := ⟨.hbm, 87, rfl⟩
abbrev main_v56 : Ref sig .tc := ⟨.hbm, 88, rfl⟩
abbrev main_cst_17 : Ref sig .tc := ⟨.hbm, 89, rfl⟩
abbrev main_call3_v0 : Ref sig .tc := ⟨.hbm, 90, rfl⟩
abbrev main_call3_v1 : Ref sig .tc := ⟨.hbm, 91, rfl⟩
abbrev main_v57 : Ref sig .tc := ⟨.hbm, 92, rfl⟩
abbrev main_cst_18 : Ref sig .tc := ⟨.hbm, 93, rfl⟩
abbrev main_v58 : Ref sig .tc := ⟨.hbm, 94, rfl⟩
abbrev main_v59 : Ref sig .tc := ⟨.hbm, 95, rfl⟩
abbrev main_c_19 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_20 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_21 : Ref sig .tc := ⟨.hbm, 106, rfl⟩
abbrev main_call6_v0 : Ref sig .tc := ⟨.hbm, 107, rfl⟩
abbrev main_call6_v1 : Ref sig .tc := ⟨.hbm, 108, rfl⟩
abbrev main_v68 : Ref sig .tc := ⟨.hbm, 109, rfl⟩
abbrev main_v69 : Ref sig .tc := ⟨.hbm, 110, rfl⟩
abbrev main_cst_22 : Ref sig .tc := ⟨.hbm, 111, rfl⟩
abbrev main_v70 : Ref sig .tc := ⟨.hbm, 112, rfl⟩
abbrev main_v71 : Ref sig .tc := ⟨.hbm, 113, rfl⟩
abbrev main_cst_23 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_24 : Ref sig .tc := ⟨.hbm, 123, rfl⟩
abbrev main_call8_v0 : Ref sig .tc := ⟨.hbm, 124, rfl⟩
abbrev main_call8_v1 : Ref sig .tc := ⟨.hbm, 125, rfl⟩
abbrev main_v80 : Ref sig .tc := ⟨.hbm, 126, rfl⟩
abbrev main_cst_25 : Ref sig .tc := ⟨.hbm, 127, rfl⟩
abbrev main_v81 : Ref sig .tc := ⟨.hbm, 128, rfl⟩
abbrev main_cst_26 : Ref sig .tc := ⟨.hbm, 129, rfl⟩
abbrev main_call9_v0 : Ref sig .tc := ⟨.hbm, 130, rfl⟩
abbrev main_call9_v1 : Ref sig .tc := ⟨.hbm, 131, rfl⟩
abbrev main_v82 : Ref sig .tc := ⟨.hbm, 132, rfl⟩
abbrev main_cst_27 : Ref sig .tc := ⟨.hbm, 133, rfl⟩
abbrev main_v83 : Ref sig .tc := ⟨.hbm, 134, rfl⟩
abbrev main_cst_28 : Ref sig .tc := ⟨.hbm, 135, rfl⟩
abbrev main_v84 : Ref sig .tc := ⟨.hbm, 136, rfl⟩
abbrev main_v85 : Ref sig .tc := ⟨.hbm, 137, rfl⟩
abbrev main_cst_29 : Ref sig .tc := ⟨.hbm, 138, rfl⟩
abbrev main_v86 : Ref sig .tc := ⟨.hbm, 139, rfl⟩
abbrev main_cst_30 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_31 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_32 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_33 : Ref sig .tc := ⟨.hbm, 155, rfl⟩
abbrev main_call10_v0 : Ref sig .tc := ⟨.hbm, 156, rfl⟩
abbrev main_call10_v1 : Ref sig .tc := ⟨.hbm, 157, rfl⟩
abbrev main_v99 : Ref sig .tc := ⟨.hbm, 158, rfl⟩
abbrev main_cst_34 : Ref sig .tc := ⟨.hbm, 159, rfl⟩
abbrev main_v100 : Ref sig .tc := ⟨.hbm, 160, rfl⟩
abbrev main_v101 : Ref sig .tc := ⟨.hbm, 161, rfl⟩
abbrev main_cst_35 : Ref sig .tc := ⟨.hbm, 162, rfl⟩
abbrev main_call11_v0 : Ref sig .tc := ⟨.hbm, 163, rfl⟩
abbrev main_call11_v1 : Ref sig .tc := ⟨.hbm, 164, rfl⟩
abbrev main_v102 : Ref sig .tc := ⟨.hbm, 165, rfl⟩
abbrev main_cst_36 : Ref sig .tc := ⟨.hbm, 166, rfl⟩
abbrev main_v103 : Ref sig .tc := ⟨.hbm, 167, rfl⟩
abbrev main_v104 : Ref sig .tc := ⟨.hbm, 168, rfl⟩
abbrev main_c_37 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_c_38 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_39 : Ref sig .tc := ⟨.hbm, 179, rfl⟩
abbrev main_call14_v0 : Ref sig .tc := ⟨.hbm, 180, rfl⟩
abbrev main_call14_v1 : Ref sig .tc := ⟨.hbm, 181, rfl⟩
abbrev main_v113 : Ref sig .tc := ⟨.hbm, 182, rfl⟩
abbrev main_v114 : Ref sig .tc := ⟨.hbm, 183, rfl⟩
abbrev main_cst_40 : Ref sig .tc := ⟨.hbm, 184, rfl⟩
abbrev main_v115 : Ref sig .tc := ⟨.hbm, 185, rfl⟩
abbrev main_v116 : Ref sig .tc := ⟨.hbm, 186, rfl⟩
abbrev main_cst_41 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x512x256_S2048x256 : S4x512x256.ShapeCasts S2048x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  shapeCasts_S2048x256_S4x512x256 : S2048x256.ShapeCasts S4x512x256
  reducesTo_S4x512x256_S4x256_d1 : S4x512x256.ReducesTo [1] S4x256
  bcast_S_S4x256 : S_.BroadcastsInDim S4x256 (![] : Fin 0 → Fin S4x256.rank)
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x4096_S4x4096_0_0 : ∀ a, (![0, 0] : Fin 2 → Nat) a + S4x4096.size a ≤ S4x4096.size a
  h_S4x4096 : 0 < S4x4096.numel
  transposes_S4x16384_S16384x4_1_0 : S4x16384.Transposes [1, 0] S16384x4
  bcast_S4_S1x4_1 : S4.BroadcastsInDim S1x4 (![1] : Fin 1 → Fin S1x4.rank)
  bcast_S16384_S16384x1_0 : S16384.BroadcastsInDim S16384x1 (![0] : Fin 1 → Fin S16384x1.rank)
  bcast_S1x4_S16384x4_0_1 : S1x4.BroadcastsInDim S16384x4 (![0, 1] : Fin 2 → Fin S16384x4.rank)
  bcast_S16384x1_S16384x4_0_1 : S16384x1.BroadcastsInDim S16384x4 (![0, 1] : Fin 2 → Fin S16384x4.rank)
  bcast_S_S16384x4 : S_.BroadcastsInDim S16384x4 (![] : Fin 0 → Fin S16384x4.rank)
  reducesTo_S16384x4_S16384_d1 : S16384x4.ReducesTo [1] S16384
  bcast_S_S16384 : S_.BroadcastsInDim S16384 (![] : Fin 0 → Fin S16384.rank)
  natLt_1_32 : 1 < 32
  shapeCasts_S16384x1_S16384 : S16384x1.ShapeCasts S16384
  reducesTo_S16384_S_d0 : S16384.ReducesTo [0] S_
  dot_S4x256_S4096x256_S4x4096_1_1_0_0_n_n_wf : DotDims.WF S4x256 S4096x256 S4x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S16384x256.size a
  hwx0_1 : ∀ i : grid0.Coords, EltTy.bits .f32 = 32 ∨ (Rect.block (s := S16384x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .f32 = 32 ∨ (Rect.block (s := S4x256) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x4096.size a ≤ S4x16384.size a
  hwx0_4 : ∀ i : grid0.Coords, EltTy.bits .f32 = 32 ∨ (Rect.block (s := S4x16384) S4x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x4096.size a ≤ S4x16384.size a
  hwx0_5 : ∀ i : grid0.Coords, EltTy.bits .f32 = 32 ∨ (Rect.block (s := S4x16384) S4x4096.size (cc0_transform_5 i) (hinb0_5 i)).WholeWords (EltTy.packing .f32)

variable [Facts₀]

def dot_S4x256_S4096x256_S4x4096_1_1_0_0_n_n : DotDims S4x256 S4096x256 S4x4096 where
  lhsContracting := [1]
  rhsContracting := [1]
  lhsNonContracting := [0]
  rhsNonContracting := [0]
  lhsBatch := []
  rhsBatch := []
  wf := dot_S4x256_S4096x256_S4x4096_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S4x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S4x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S4x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S4x512x256 : Shape := ⟨3, ![4, 512, 256]⟩
abbrev S16384 : Shape := ⟨1, ![16384]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S16384x1 : Shape := ⟨2, ![16384, 1]⟩
abbrev S256x2048 : Shape := ⟨2, ![256, 2048]⟩
abbrev S16384x2048 : Shape := ⟨2, ![16384, 2048]⟩
abbrev S16384x4x512 : Shape := ⟨3, ![16384, 4, 512]⟩
abbrev S16384x4 : Shape := ⟨2, ![16384, 4]⟩
abbrev S4 : Shape := ⟨1, ![4]⟩
abbrev S1x4 : Shape := ⟨2, ![1, 4]⟩

abbrev nBuf : Space → Nat
  | .hbm => 211
  | .vmem => 0
  | .smem => 0
  | _ => 0

abbrev hbmTy0_0 (i : Nat) : BufTy := match i % 128 with
  | 0 => ⟨S16384x256, .f32⟩
  | 1 => ⟨S16384x256, .f32⟩
  | 2 => ⟨S4x512x256, .f32⟩
  | 3 => ⟨S4x512x256, .f32⟩
  | 4 => ⟨S16384, .i32⟩
  | 5 => ⟨S16384, .i32⟩
  | 6 => ⟨S2048x256, .f32⟩
  | 7 => ⟨S2048x256, .f32⟩
  | 8 => ⟨S_, .f32⟩
  | 9 => ⟨S2048, .f32⟩
  | 10 => ⟨S2048x1, .f32⟩
  | 11 => ⟨S2048x1, .f32⟩
  | 12 => ⟨S_, .f32⟩
  | 13 => ⟨S2048x1, .f32⟩
  | 14 => ⟨S2048x1, .f32⟩
  | 15 => ⟨S2048x256, .f32⟩
  | 16 => ⟨S2048x256, .f32⟩
  | 17 => ⟨S16384x256, .f32⟩
  | 18 => ⟨S_, .f32⟩
  | 19 => ⟨S16384, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x256, .f32⟩
  | 26 => ⟨S16384x256, .f32⟩
  | 27 => ⟨S256x2048, .f32⟩
  | 28 => ⟨S16384x2048, .f32⟩
  | 29 => ⟨S16384x4x512, .f32⟩
  | 30 => ⟨S2048x256, .f32⟩
  | 31 => ⟨S2048x256, .f32⟩
  | 32 => ⟨S_, .f32⟩
  | 33 => ⟨S2048, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x256, .f32⟩
  | 40 => ⟨S2048x256, .f32⟩
  | 41 => ⟨S16384x256, .f32⟩
  | 42 => ⟨S_, .f32⟩
  | 43 => ⟨S16384, .f32⟩
  | 44 => ⟨S16384x1, .f32⟩
  | 45 => ⟨S16384x1, .f32⟩
  | 46 => ⟨S_, .f32⟩
  | 47 => ⟨S16384x1, .f32⟩
  | 48 => ⟨S16384x1, .f32⟩
  | 49 => ⟨S16384x256, .f32⟩
  | 50 => ⟨S16384x256, .f32⟩
  | 51 => ⟨S256x2048, .f32⟩
  | 52 => ⟨S16384x2048, .f32⟩
  | 53 => ⟨S16384x4x512, .f32⟩
  | 54 => ⟨S_, .f32⟩
  | 55 => ⟨S16384x4, .f32⟩
  | 56 => ⟨S_, .f32⟩
  | 57 => ⟨S16384x4, .f32⟩
  | 58 => ⟨S16384x4, .f32⟩
  | 59 => ⟨S4, .i32⟩
  | 60 => ⟨S1x4, .i32⟩
  | 61 => ⟨S16384x1, .i32⟩
  | 62 => ⟨S16384x4, .i32⟩
  | 63 => ⟨S16384x4, .i32⟩
  | 64 => ⟨S16384x4, .i1⟩
  | 65 => ⟨S_, .f32⟩
  | 66 => ⟨S_, .f32⟩
  | 67 => ⟨S16384x4, .f32⟩
  | 68 => ⟨S16384x4, .f32⟩
  | 69 => ⟨S_, .f32⟩
  | 70 => ⟨S16384, .f32⟩
  | 71 => ⟨S_, .f32⟩
  | 72 => ⟨S_, .f32⟩
  | 73 => ⟨S16384x4, .f32⟩
  | 74 => ⟨S16384x4, .f32⟩
  | 75 => ⟨S_, .f32⟩
  | 76 => ⟨S16384, .f32⟩
  | 77 => ⟨S_, .f32⟩
  | 78 => ⟨S16384, .f32⟩
  | 79 => ⟨S16384, .f32⟩
  | 80 => ⟨S_, .f32⟩
  | 81 => ⟨S16384, .f32⟩
  | 82 => ⟨S_, .f32⟩
  | 83 => ⟨S16384, .f32⟩
  | 84 => ⟨S16384, .f32⟩
  | 85 => ⟨S16384x4, .i32⟩
  | 86 => ⟨S16384x4, .i32⟩
  | 87 => ⟨S16384x4, .i1⟩
  | 88 => ⟨S16384x4, .i32⟩
  | 89 => ⟨S_, .i32⟩
  | 90 => ⟨S16384, .i32⟩
  | 91 => ⟨S16384, .f32⟩
  | 92 => ⟨S16384, .i32⟩
  | 93 => ⟨S_, .i32⟩
  | 94 => ⟨S16384, .i32⟩
  | 95 => ⟨S16384, .i32⟩
  | 96 => ⟨S16384, .f32⟩
  | 97 => ⟨S_, .f32⟩
  | 98 => ⟨S_, .f32⟩
  | 99 => ⟨S16384x4, .f32⟩
  | 100 => ⟨S16384x4, .f32⟩
  | 101 => ⟨S_, .f32⟩
  | 102 => ⟨S16384, .f32⟩
  | 103 => ⟨S16384, .f32⟩
  | 104 => ⟨S_, .f32⟩
  | 105 => ⟨S_, .f32⟩
  | 106 => ⟨S16384x4, .f32⟩
  | 107 => ⟨S16384x4, .f32⟩
  | 108 => ⟨S_, .f32⟩
  | 109 => ⟨S16384, .f32⟩
  | 110 => ⟨S16384, .f32⟩
  | 111 => ⟨S_, .i32⟩
  | 112 => ⟨S16384, .i32⟩
  | 113 => ⟨S16384, .i1⟩
  | 114 => ⟨S16384, .i1⟩
  | 115 => ⟨S_, .i32⟩
  | 116 => ⟨S16384, .i32⟩
  | 117 => ⟨S16384, .i1⟩
  | 118 => ⟨S16384, .i1⟩
  | 119 => ⟨S16384, .f32⟩
  | 120 => ⟨S16384, .f32⟩
  | 121 => ⟨S_, .f32⟩
  | 122 => ⟨S_, .f32⟩
  | 123 => ⟨S16384, .f32⟩
  | 124 => ⟨S16384, .f32⟩
  | 125 => ⟨S16384, .f32⟩
  | 126 => ⟨S_, .f32⟩
  | 127 => ⟨S_, .f32⟩
  | _ => ⟨S16384x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16384x4, .f32⟩
  | 6 => ⟨S_, .f32⟩
  | 7 => ⟨S16384x4, .f32⟩
  | 8 => ⟨S16384x4, .f32⟩
  | 9 => ⟨S4, .i32⟩
  | 10 => ⟨S1x4, .i32⟩
  | 11 => ⟨S16384x1, .i32⟩
  | 12 => ⟨S16384x4, .i32⟩
  | 13 => ⟨S16384x4, .i32⟩
  | 14 => ⟨S16384x4, .i1⟩
  | 15 => ⟨S_, .f32⟩
  | 16 => ⟨S_, .f32⟩
  | 17 => ⟨S16384x4, .f32⟩
  | 18 => ⟨S16384x4, .f32⟩
  | 19 => ⟨S_, .f32⟩
  | 20 => ⟨S16384, .f32⟩
  | 21 => ⟨S_, .f32⟩
  | 22 => ⟨S_, .f32⟩
  | 23 => ⟨S16384x4, .f32⟩
  | 24 => ⟨S16384x4, .f32⟩
  | 25 => ⟨S_, .f32⟩
  | 26 => ⟨S16384, .f32⟩
  | 27 => ⟨S_, .f32⟩
  | 28 => ⟨S16384, .f32⟩
  | 29 => ⟨S16384, .f32⟩
  | 30 => ⟨S_, .f32⟩
  | 31 => ⟨S16384, .f32⟩
  | 32 => ⟨S_, .f32⟩
  | 33 => ⟨S16384, .f32⟩
  | 34 => ⟨S16384, .f32⟩
  | 35 => ⟨S16384x4, .i32⟩
  | 36 => ⟨S16384x4, .i32⟩
  | 37 => ⟨S16384x4, .i1⟩
  | 38 => ⟨S16384x4, .i32⟩
  | 39 => ⟨S_, .i32⟩
  | 40 => ⟨S16384, .i32⟩
  | 41 => ⟨S16384, .f32⟩
  | 42 => ⟨S16384, .i32⟩
  | 43 => ⟨S_, .i32⟩
  | 44 => ⟨S16384, .i32⟩
  | 45 => ⟨S16384, .i32⟩
  | 46 => ⟨S16384, .f32⟩
  | 47 => ⟨S_, .f32⟩
  | 48 => ⟨S_, .f32⟩
  | 49 => ⟨S16384x4, .f32⟩
  | 50 => ⟨S16384x4, .f32⟩
  | 51 => ⟨S_, .f32⟩
  | 52 => ⟨S16384, .f32⟩
  | 53 => ⟨S16384, .f32⟩
  | 54 => ⟨S_, .f32⟩
  | 55 => ⟨S_, .f32⟩
  | 56 => ⟨S16384x4, .f32⟩
  | 57 => ⟨S16384x4, .f32⟩
  | 58 => ⟨S_, .f32⟩
  | 59 => ⟨S16384, .f32⟩
  | 60 => ⟨S16384, .f32⟩
  | 61 => ⟨S_, .i32⟩
  | 62 => ⟨S16384, .i32⟩
  | 63 => ⟨S16384, .i1⟩
  | 64 => ⟨S16384, .i1⟩
  | 65 => ⟨S_, .i32⟩
  | 66 => ⟨S16384, .i32⟩
  | 67 => ⟨S16384, .i1⟩
  | 68 => ⟨S16384, .i1⟩
  | 69 => ⟨S16384, .f32⟩
  | 70 => ⟨S16384, .f32⟩
  | 71 => ⟨S_, .f32⟩
  | 72 => ⟨S_, .f32⟩
  | 73 => ⟨S16384, .f32⟩
  | 74 => ⟨S16384, .f32⟩
  | 75 => ⟨S16384, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_call0_v0 : Ref sig .tc := ⟨.hbm, 66, rfl⟩
abbrev main_call0_v1 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_call2_v0 : Ref sig .tc := ⟨.hbm, 98, rfl⟩
abbrev main_call2_v1 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_cst_19 : Ref sig .tc := ⟨.hbm, 104, rfl⟩
abbrev main_call3_v0 : Ref sig .tc := ⟨.hbm, 105, rfl⟩
abbrev main_call3_v1 : Ref sig .tc := ⟨.hbm, 106, rfl⟩
abbrev main_v71 : Ref sig .tc := ⟨.hbm, 107, rfl⟩
abbrev main_cst_20 : Ref sig .tc := ⟨.hbm, 108, rfl⟩
abbrev main_v72 : Ref sig .tc := ⟨.hbm, 109, rfl⟩
abbrev main_v73 : Ref sig .tc := ⟨.hbm, 110, rfl⟩
abbrev main_c_21 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_22 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_23 : Ref sig .tc := ⟨.hbm, 121, rfl⟩
abbrev main_call6_v0 : Ref sig .tc := ⟨.hbm, 122, rfl⟩
abbrev main_call6_v1 : Ref sig .tc := ⟨.hbm, 123, rfl⟩
abbrev main_v82 : Ref sig .tc := ⟨.hbm, 124, rfl⟩
abbrev main_v83 : Ref sig .tc := ⟨.hbm, 125, rfl⟩
abbrev main_cst_24 : Ref sig .tc := ⟨.hbm, 126, rfl⟩
abbrev main_v84 : Ref sig .tc := ⟨.hbm, 127, rfl⟩
abbrev main_v85 : Ref sig .tc := ⟨.hbm, 128, rfl⟩
abbrev main_cst_25 : Ref sig .tc := ⟨.hbm, 129, rfl⟩
abbrev main_v86 : Ref sig .tc := ⟨.hbm, 130, rfl⟩
abbrev main_v87 : Ref sig .tc := ⟨.hbm, 131, rfl⟩
abbrev main_cst_26 : Ref sig .tc := ⟨.hbm, 132, rfl⟩
abbrev main_v88 : Ref sig .tc := ⟨.hbm, 133, rfl⟩
abbrev main_cst_27 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_28 : Ref sig .tc := ⟨.hbm, 143, rfl⟩
abbrev main_call8_v0 : Ref sig .tc := ⟨.hbm, 144, rfl⟩
abbrev main_call8_v1 : Ref sig .tc := ⟨.hbm, 145, rfl⟩
abbrev main_v97 : Ref sig .tc := ⟨.hbm, 146, rfl⟩
abbrev main_cst_29 : Ref sig .tc := ⟨.hbm, 147, rfl⟩
abbrev main_v98 : Ref sig .tc := ⟨.hbm, 148, rfl⟩
abbrev main_cst_30 : Ref sig .tc := ⟨.hbm, 149, rfl⟩
abbrev main_call9_v0 : Ref sig .tc := ⟨.hbm, 150, rfl⟩
abbrev main_call9_v1 : Ref sig .tc := ⟨.hbm, 151, rfl⟩
abbrev main_v99 : Ref sig .tc := ⟨.hbm, 152, rfl⟩
abbrev main_cst_31 : Ref sig .tc := ⟨.hbm, 153, rfl⟩
abbrev main_v100 : Ref sig .tc := ⟨.hbm, 154, rfl⟩
abbrev main_cst_32 : Ref sig .tc := ⟨.hbm, 155, rfl⟩
abbrev main_v101 : Ref sig .tc := ⟨.hbm, 156, rfl⟩
abbrev main_v102 : Ref sig .tc := ⟨.hbm, 157, rfl⟩
abbrev main_cst_33 : Ref sig .tc := ⟨.hbm, 158, rfl⟩
abbrev main_v103 : Ref sig .tc := ⟨.hbm, 159, rfl⟩
abbrev main_cst_34 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_35 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_36 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_37 : Ref sig .tc := ⟨.hbm, 175, rfl⟩
abbrev main_call10_v0 : Ref sig .tc := ⟨.hbm, 176, rfl⟩
abbrev main_call10_v1 : Ref sig .tc := ⟨.hbm, 177, rfl⟩
abbrev main_v116 : Ref sig .tc := ⟨.hbm, 178, rfl⟩
abbrev main_cst_38 : Ref sig .tc := ⟨.hbm, 179, rfl⟩
abbrev main_v117 : Ref sig .tc := ⟨.hbm, 180, rfl⟩
abbrev main_v118 : Ref sig .tc := ⟨.hbm, 181, rfl⟩
abbrev main_cst_39 : Ref sig .tc := ⟨.hbm, 182, rfl⟩
abbrev main_call11_v0 : Ref sig .tc := ⟨.hbm, 183, rfl⟩
abbrev main_call11_v1 : Ref sig .tc := ⟨.hbm, 184, rfl⟩
abbrev main_v119 : Ref sig .tc := ⟨.hbm, 185, rfl⟩
abbrev main_cst_40 : Ref sig .tc := ⟨.hbm, 186, rfl⟩
abbrev main_v120 : Ref sig .tc := ⟨.hbm, 187, rfl⟩
abbrev main_v121 : Ref sig .tc := ⟨.hbm, 188, rfl⟩
abbrev main_c_41 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_c_42 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_cst_43 : Ref sig .tc := ⟨.hbm, 199, rfl⟩
abbrev main_call14_v0 : Ref sig .tc := ⟨.hbm, 200, rfl⟩
abbrev main_call14_v1 : Ref sig .tc := ⟨.hbm, 201, rfl⟩
abbrev main_v130 : Ref sig .tc := ⟨.hbm, 202, rfl⟩
abbrev main_v131 : Ref sig .tc := ⟨.hbm, 203, rfl⟩
abbrev main_cst_44 : Ref sig .tc := ⟨.hbm, 204, rfl⟩
abbrev main_v132 : Ref sig .tc := ⟨.hbm, 205, rfl⟩
abbrev main_v133 : Ref sig .tc := ⟨.hbm, 206, rfl⟩
abbrev main_cst_45 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩

abbrev nD : Nat := 1
abbrev τ : Topo := Topo.v7x

variable {F : FTy → Type} [FloatOps F]

class Facts₀ : Prop where
  shapeCasts_S4x512x256_S2048x256 : S4x512x256.ShapeCasts S2048x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  transposes_S2048x256_S256x2048_1_0 : S2048x256.Transposes [1, 0] S256x2048
  shapeCasts_S16384x2048_S16384x4x512 : S16384x2048.ShapeCasts S16384x4x512
  reducesTo_S16384x4x512_S16384x4_d2 : S16384x4x512.ReducesTo [2] S16384x4
  bcast_S_S16384x4 : S_.BroadcastsInDim S16384x4 (![] : Fin 0 → Fin S16384x4.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  bcast_S16384x1_S16384x4_0_1 : S16384x1.BroadcastsInDim S16384x4 (![0, 1] : Fin 2 → Fin S16384x4.rank)
  reducesTo_S16384x4_S16384_d1 : S16384x4.ReducesTo [1] S16384
  bcast_S_S16384 : S_.BroadcastsInDim S16384 (![] : Fin 0 → Fin S16384.rank)
  natLt_1_32 : 1 < 32
  shapeCasts_S16384x1_S16384 : S16384x1.ShapeCasts S16384
  reducesTo_S16384_S_d0 : S16384.ReducesTo [0] S_
  dot_S16384x256_S256x2048_S16384x2048_1_0_0_1_n_n_wf : DotDims.WF S16384x256 S256x2048 S16384x2048 [1] [0] [0] [1] [] []

variable [Facts₀]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf

class Facts : Prop extends Facts₀ where

variable [Facts]
-- ==== Proof.SimBits.lean ====
/-
  The proof data of the one pallas_call of `Kernel`'s @main, shared by the frame proof and the value proof.
  The call runs on a grid of 4 points. Point t stages rows 4096·t … 4096·t+4095 of the two activation matrices
  (windows 0, 1), the two whole 4×256 prototype-mean matrices (windows 2, 3, computed by the host lines before the
  call), and writes back columns 4096·t … 4096·t+4095 of the two 4×16384 results (windows 4, 5).
  At a point the body stores into each result's staging buffer ONE whole-buffer piece: the product of the prototype
  means with the row-normalised activation block (the skeleton's two payloads).
-/
import proofs.«124243_j46462956208617_2_alg».proof.Proof.Gen.Kernel.Launch
import proofs.«124243_j46462956208617_2_alg».proof.Proof.Gen.Kernel.Skeleton
import proofs.«124243_j46462956208617_2_alg».proof.Proof.Gen.Kernel.Points
import Idealize.ShloMosaic.Lib.Pipeline.FrameBody
import Idealize.ShloMosaic.Lib.Pipeline.FrameSuffix

noncomputable section

namespace Cert.Kernel.Sim

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-- The stretches of host lines after the call, in order. -/
abbrev tail : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19, hostOps1_20, hostOps1_21, hostOps1_22, hostOps1_23, hostOps1_24, hostOps1_25, hostOps1_26, hostOps1_27,
   hostOps1_28]

/-- Core `c`'s buffer contents when the call is entered: the launch contents after the host lines before the call. -/
abbrev entry (c : Dev nD) : Valuation τ sig (Elt F) := StableHlo.after (List.flatten [hostOps0]) (fun b => m (c, b))
/-- The same read at a TensorCore reference. -/
abbrev atEntry (c : Dev nD) (b : Ref sig .tc) : Buf (Elt F) ((c : Thread nD τ).loc b) := entry m c (Proc.devRef .tc b)

/-- Window `w`'s block at point `t`, read off its array as the call finds it. -/
def blockOf (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The whole-buffer rectangles the body loads and stores through. -/
abbrev rAct : Rect S4096x256 := Rect.unit (s := S4096x256) ![0, 0] S4096x256.size Facts₀.inb_S4096x256_S4096x256_0_0
abbrev rMean : Rect S4x256 := Rect.unit (s := S4x256) ![0, 0] S4x256.size Facts₀.inb_S4x256_S4x256_0_0
abbrev rOut : Rect S4x4096 := Rect.unit (s := S4x4096) ![0, 0] S4x4096.size Facts₀.inb_S4x4096_S4x4096_0_0

/-- What the body leaves in the first result's staging buffer, from the activation block and the prototype means:
    its one store, a whole-buffer piece. -/
def simPath (h : Vec F S4096x256 .f32) (p : Vec F S4x256 .f32) : Vec F S4x4096 .f32 :=
  View.canon [⟨rOut, k0_pay1 (View.ld h rAct) (View.ld p rMean)⟩]

/-- The same for the second result. -/
def simGeno (h : Vec F S4096x256 .f32) (p : Vec F S4x256 .f32) : Vec F S4x4096 .f32 :=
  View.canon [⟨rOut, k0_pay2 (View.ld h rAct) (View.ld p rMean)⟩]

/-- The call's proof data on core `c`: the arrays as the call finds them; after the body at point `t` each input's
    buffer at its block and each result's at its piece; the class's invariant; nothing owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockOf m c 0 t
    | ⟨1, _⟩ => blockOf m c 1 t
    | ⟨2, _⟩ => blockOf m c 2 t
    | ⟨3, _⟩ => blockOf m c 3 t
    | ⟨4, _⟩ => simPath (blockOf m c 0 t) (blockOf m c 2 t)
    | ⟨5, _⟩ => simGeno (blockOf m c 1 t) (blockOf m c 3 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after_0 (c : Dev nD) (t : Fin cfg0.N) : (data m 0 c).after 0 t = blockOf m c 0 t := by dsimp only [data]
theorem after_1 (c : Dev nD) (t : Fin cfg0.N) : (data m 0 c).after 1 t = blockOf m c 1 t := by dsimp only [data]
theorem after_2 (c : Dev nD) (t : Fin cfg0.N) : (data m 0 c).after 2 t = blockOf m c 2 t := by dsimp only [data]
theorem after_3 (c : Dev nD) (t : Fin cfg0.N) : (data m 0 c).after 3 t = blockOf m c 3 t := by dsimp only [data]
theorem after_4 (c : Dev nD) (t : Fin cfg0.N) :
    (data m 0 c).after 4 t = simPath (blockOf m c 0 t) (blockOf m c 2 t) := by dsimp only [data]
theorem after_5 (c : Dev nD) (t : Fin cfg0.N) :
    (data m 0 c).after 5 t = simGeno (blockOf m c 1 t) (blockOf m c 3 t) := by dsimp only [data]

end Cert.Kernel.Sim

end
-- ==== Proof.FrameBits.lean ====
/-
  The FRAME of `Kernel`: @main runs — every weakly fair execution terminates, nothing faulting — and its six
  argument arrays end as launched.

  @main is 34 host lines, one pallas_call on a grid of 4 points, and 149 host lines in 29 stretches. The argument:
  * no host line, before or after the call, writes an argument array or (after the call) an array the call's windows
    stage: each line writes its own result buffer only, and that buffer is told apart from these by name;
  * the call's body, on whole staging buffers, reads its four inputs, reads each result's buffer once without using
    the value, and overwrites each result's buffer whole: the inputs' buffers are left as found and each result's
    buffer at its one whole-buffer piece;
  * so the library's frame run around a call applies with the shared proof data: the two activation matrices, staged
    by input windows, end at their entry contents; the other four arguments, staged by no window, end as the later
    lines leave them, which is as launched.
-/
import proofs.«124243_j46462956208617_2_alg».proof.Proof.SimBits
import Idealize.ShloMosaic.Lib.Pipeline.FrameBody
import Idealize.ShloMosaic.Lib.Pipeline.FrameSuffix
import Idealize.ShloMosaic.Lib.Ring
import Idealize.ShloMosaic.Lib.Tactic

-- membership of an index in a whole-buffer rectangle of these extents recurses once per coordinate of the long axis
set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The host lines around the call

Every host line writes one buffer, its own result. The buffers whose contents the frame speaks of — the six arrays
the call's windows stage and the four arguments no window stages — are the result of no line, before or after the call. -/

/-- The buffers that no host line may write: the windows' arrays, then the remaining arguments. -/
def kept : List (Ref sig .tc) :=
  [main_arg0, main_arg1, main_v12, main_v25, main_v26_0, main_v26_1, main_arg2, main_arg3, main_arg4, main_arg5]

/-- Every window's array is among them. -/
theorem arr_mem_kept : ∀ w, Pipeline.arrRef spec0 w ∈ kept := by decide

theorem hostOps1_fresh : (hostOps1 : List (HloOp τ sig (Elt F))).Forall fun op => op.fresh = ∅ := by
  simp only [List.Forall]; repeat' constructor
theorem hostOps1_keeps (b : Ref sig .tc) (hb : b ∈ kept) :
    (hostOps1 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_1_fresh : (hostOps1_1 : List (HloOp τ sig (Elt F))).Forall fun op => op.fresh = ∅ := by
  simp only [List.Forall]; repeat' constructor
theorem hostOps1_1_keeps (b : Ref sig .tc) (hb : b ∈ kept) :
    (hostOps1_1 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_2_fresh : (hostOps1_2 : List (HloOp τ sig (Elt F))).Forall fun op => op.fresh = ∅ := by
  simp only [List.Forall]; repeat' constructor
theorem hostOps1_2_keeps (b : Ref sig .tc) (hb : b ∈ kept) :
    (hostOps1_2 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_3_fresh : (hostOps1_3 : List (HloOp τ sig (Elt F))).Forall fun op => op.fresh = ∅ := by
  simp only [List.Forall]; repeat' constructor
theorem hostOps1_3_keeps (b : Ref sig .tc) (hb : b ∈ kept) :
    (hostOps1_3 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_4_fresh : (hostOps1_4 : List (HloOp τ sig (Elt F))).Forall fun op => op.fresh = ∅ := by
  simp only [List.Forall]; repeat' constructor
theorem hostOps1_4_keeps (b : Ref sig .tc) (hb : b ∈ kept) :
    (hostOps1_4 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_5_fresh : (hostOps1_5 : List (HloOp τ sig (Elt F))).Forall fun op => op.fresh = ∅ := by
  simp only [List.Forall]; repeat' constructor
theorem hostOps1_5_keeps (b : Ref sig .tc) (hb : b ∈ kept) :
    (hostOps1_5 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_6_fresh : (hostOps1_6 : List (HloOp τ sig (Elt F))).Forall fun op => op.fresh = ∅ := by
  simp only [List.Forall]; repeat' constructor
theorem hostOps1_6_keeps (b : Ref sig .tc) (hb : b ∈ kept) :
    (hostOps1_6 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_7_fresh : (hostOps1_7 : List (HloOp τ sig (Elt F))).Forall fun op => op.fresh = ∅ := by
  simp only [List.Forall]; repeat' constructor
theorem hostOps1_7_keeps (b : Ref sig .tc) (hb : b ∈ kept) :
    (hostOps1_7 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_8_fresh : (hostOps1_8 : List (HloOp τ sig (Elt F))).Forall fun op => op.fresh = ∅ := by
  simp only [List.Forall]; repeat' constructor
theorem hostOps1_8_keeps (b : Ref sig .tc) (hb : b ∈ kept) :
    (hostOps1_8 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_9_fresh : (hostOps1_9 : List (HloOp τ sig (Elt F))).Forall fun op => op.fresh = ∅ := by
  simp only [List.Forall]; repeat' constructor
theorem hostOps1_9_keeps (b : Ref sig .tc) (hb : b ∈ kept) :
    (hostOps1_9 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_10_fresh : (hostOps1_10 : List (HloOp τ sig (Elt F))).Forall fun op => op.fresh = ∅ := by
  simp only [List.Forall]; repeat' constructor
theorem hostOps1_10_keeps (b : Ref sig .tc) (hb : b ∈ kept) :
    (hostOps1_10 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_10, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_11_fresh : (hostOps1_11 : List (HloOp τ sig (Elt F))).Forall fun op => op.fresh = ∅ := by
  simp only [List.Forall]; repeat' constructor
theorem hostOps1_11_keeps (b : Ref sig .tc) (hb : b ∈ kept) :
    (hostOps1_11 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_11, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_12_fresh : (hostOps1_12 : List (HloOp τ sig (Elt F))).Forall fun op => op.fresh = ∅ := by
  simp only [List.Forall]; repeat' constructor
theorem hostOps1_12_keeps (b : Ref sig .tc) (hb : b ∈ kept) :
    (hostOps1_12 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_12, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_13_fresh : (hostOps1_13 : List (HloOp τ sig (Elt F))).Forall fun op => op.fresh = ∅ := by
  simp only [List.Forall]; repeat' constructor
theorem hostOps1_13_keeps (b : Ref sig .tc) (hb : b ∈ kept) :
    (hostOps1_13 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_13, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_14_fresh : (hostOps1_14 : List (HloOp τ sig (Elt F))).Forall fun op => op.fresh = ∅ := by
  simp only [List.Forall]; repeat' constructor
theorem hostOps1_14_keeps (b : Ref sig .tc) (hb : b ∈ kept) :
    (hostOps1_14 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_14, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_15_fresh : (hostOps1_15 : List (HloOp τ sig (Elt F))).Forall fun op => op.fresh = ∅ := by
  simp only [List.Forall]; repeat' constructor
theorem hostOps1_15_keeps (b : Ref sig .tc) (hb : b ∈ kept) :
    (hostOps1_15 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_15, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_16_fresh : (hostOps1_16 : List (HloOp τ sig (Elt F))).Forall fun op => op.fresh = ∅ := by
  simp only [List.Forall]; repeat' constructor
theorem hostOps1_16_keeps (b : Ref sig .tc) (hb : b ∈ kept) :
    (hostOps1_16 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_16, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_17_fresh : (hostOps1_17 : List (HloOp τ sig (Elt F))).Forall fun op => op.fresh = ∅ := by
  simp only [List.Forall]; repeat' constructor
theorem hostOps1_17_keeps (b : Ref sig .tc) (hb : b ∈ kept) :
    (hostOps1_17 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_17, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_18_fresh : (hostOps1_18 : List (HloOp τ sig (Elt F))).Forall fun op => op.fresh = ∅ := by
  simp only [List.Forall]; repeat' constructor
theorem hostOps1_18_keeps (b : Ref sig .tc) (hb : b ∈ kept) :
    (hostOps1_18 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_18, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_19_fresh : (hostOps1_19 : List (HloOp τ sig (Elt F))).Forall fun op => op.fresh = ∅ := by
  simp only [List.Forall]; repeat' constructor
theorem hostOps1_19_keeps (b : Ref sig .tc) (hb : b ∈ kept) :
    (hostOps1_19 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_19, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_20_fresh : (hostOps1_20 : List (HloOp τ sig (Elt F))).Forall fun op => op.fresh = ∅ := by
  simp only [List.Forall]; repeat' constructor
theorem hostOps1_20_keeps (b : Ref sig .tc) (hb : b ∈ kept) :
    (hostOps1_20 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_20, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_21_fresh : (hostOps1_21 : List (HloOp τ sig (Elt F))).Forall fun op => op.fresh = ∅ := by
  simp only [List.Forall]; repeat' constructor
theorem hostOps1_21_keeps (b : Ref sig .tc) (hb : b ∈ kept) :
    (hostOps1_21 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_21, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_22_fresh : (hostOps1_22 : List (HloOp τ sig (Elt F))).Forall fun op => op.fresh = ∅ := by
  simp only [List.Forall]; repeat' constructor
theorem hostOps1_22_keeps (b : Ref sig .tc) (hb : b ∈ kept) :
    (hostOps1_22 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_22, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_23_fresh : (hostOps1_23 : List (HloOp τ sig (Elt F))).Forall fun op => op.fresh = ∅ := by
  simp only [List.Forall]; repeat' constructor
theorem hostOps1_23_keeps (b : Ref sig .tc) (hb : b ∈ kept) :
    (hostOps1_23 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_23, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_24_fresh : (hostOps1_24 : List (HloOp τ sig (Elt F))).Forall fun op => op.fresh = ∅ := by
  simp only [List.Forall]; repeat' constructor
theorem hostOps1_24_keeps (b : Ref sig .tc) (hb : b ∈ kept) :
    (hostOps1_24 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_24, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_25_fresh : (hostOps1_25 : List (HloOp τ sig (Elt F))).Forall fun op => op.fresh = ∅ := by
  simp only [List.Forall]; repeat' constructor
theorem hostOps1_25_keeps (b : Ref sig .tc) (hb : b ∈ kept) :
    (hostOps1_25 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_25, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_26_fresh : (hostOps1_26 : List (HloOp τ sig (Elt F))).Forall fun op => op.fresh = ∅ := by
  simp only [List.Forall]; repeat' constructor
theorem hostOps1_26_keeps (b : Ref sig .tc) (hb : b ∈ kept) :
    (hostOps1_26 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_26, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_27_fresh : (hostOps1_27 : List (HloOp τ sig (Elt F))).Forall fun op => op.fresh = ∅ := by
  simp only [List.Forall]; repeat' constructor
theorem hostOps1_27_keeps (b : Ref sig .tc) (hb : b ∈ kept) :
    (hostOps1_27 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_27, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_28_fresh : (hostOps1_28 : List (HloOp τ sig (Elt F))).Forall fun op => op.fresh = ∅ := by
  simp only [List.Forall]; repeat' constructor
theorem hostOps1_28_keeps (b : Ref sig .tc) (hb : b ∈ kept) :
    (hostOps1_28 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_28, List.Forall, StableHlo.nullary_writes, StableHlo.unary_writes, StableHlo.binary_writes, StableHlo.ternary_writes, StableHlo.reshape_writes, Finset.mem_singleton]
    repeat' apply And.intro
    all_goals exact StableHlo.devRef_ne_of_ne (by decide)

theorem hostOps0_fresh : (hostOps0 : List (HloOp τ sig (Elt F))).Forall fun op => op.fresh = ∅ := by
  simp only [List.Forall]; repeat' constructor
/-- @main's six arguments. -/
def args : List (Ref sig .tc) := [main_arg0, main_arg1, main_arg2, main_arg3, main_arg4, main_arg5]

/-- No line before the call writes an argument (two of the windows' arrays ARE results of lines before the call,
    so this is said of the arguments only). -/
theorem hostOps0_keeps (b : Ref sig .tc) (hb : b ∈ args) :
    (hostOps0 : List (HloOp τ sig (Elt F))).Forall fun op => Proc.devRef .tc b ∉ op.writes := by
  simp only [args, List.mem_cons, List.mem_nil_iff, or_false] at hb
  rcases hb with rfl | rfl | rfl | rfl | rfl | rfl
  all_goals
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- A property of every stretch after the call holds of every member of `tail`. -/
theorem tail_all {P : List (HloOp τ sig (Elt F)) → Prop}
    (h : P hostOps1 ∧ P hostOps1_1 ∧ P hostOps1_2 ∧ P hostOps1_3 ∧ P hostOps1_4 ∧ P hostOps1_5 ∧ P hostOps1_6 ∧ P hostOps1_7 ∧ P hostOps1_8 ∧ P hostOps1_9 ∧ P hostOps1_10 ∧ P hostOps1_11 ∧ P hostOps1_12 ∧ P hostOps1_13 ∧ P hostOps1_14 ∧ P hostOps1_15 ∧ P hostOps1_16 ∧ P hostOps1_17 ∧ P hostOps1_18 ∧ P hostOps1_19 ∧ P hostOps1_20 ∧ P hostOps1_21 ∧ P hostOps1_22 ∧ P hostOps1_23 ∧ P hostOps1_24 ∧ P hostOps1_25 ∧ P hostOps1_26 ∧ P hostOps1_27 ∧ P hostOps1_28) :
    ∀ ops ∈ (tail : List (List (HloOp τ sig (Elt F)))), P ops := by
  intro ops hops
  obtain ⟨h0, h1, h2, h3, h4, h5, h6, h7, h8, h9, h10, h11, h12, h13, h14, h15, h16, h17, h18, h19, h20, h21, h22, h23, h24, h25, h26, h27, h28⟩ := h
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl <;> assumption

/-- The lines after the call touch TensorCore references only, -/
theorem tail_sub : ∀ ops ∈ (tail : List (List (HloOp τ sig (Elt F)))), ops.Forall fun op => op.bufs ⊆ StableHlo.tcRefs τ sig :=
  tail_all ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub⟩
/-- allocate nothing, -/
theorem tail_fresh : ∀ ops ∈ (tail : List (List (HloOp τ sig (Elt F)))), ops.Forall fun op => op.fresh = ∅ :=
  tail_all ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh⟩
/-- and write no kept buffer. -/
theorem tail_keeps (b : Ref sig .tc) (hb : b ∈ kept) :
    ∀ ops ∈ (tail : List (List (HloOp τ sig (Elt F)))), ops.Forall fun op => Proc.devRef .tc b ∉ op.writes :=
  tail_all ⟨hostOps1_keeps b hb, hostOps1_1_keeps b hb, hostOps1_2_keeps b hb, hostOps1_3_keeps b hb, hostOps1_4_keeps b hb, hostOps1_5_keeps b hb, hostOps1_6_keeps b hb, hostOps1_7_keeps b hb, hostOps1_8_keeps b hb, hostOps1_9_keeps b hb, hostOps1_10_keeps b hb, hostOps1_11_keeps b hb, hostOps1_12_keeps b hb, hostOps1_13_keeps b hb, hostOps1_14_keeps b hb, hostOps1_15_keeps b hb, hostOps1_16_keeps b hb, hostOps1_17_keeps b hb, hostOps1_18_keeps b hb, hostOps1_19_keeps b hb, hostOps1_20_keeps b hb, hostOps1_21_keeps b hb, hostOps1_22_keeps b hb, hostOps1_23_keeps b hb, hostOps1_24_keeps b hb, hostOps1_25_keeps b hb, hostOps1_26_keeps b hb, hostOps1_27_keeps b hb, hostOps1_28_keeps b hb⟩

local notation "𝕄" => MT nD τ sig Unit (Elt F) ℕ (UR sig nD τ) ℕ

/-! ## The body on whole staging buffers -/

/-- The one piece stored into a result's buffer is the whole buffer, so it covers it. -/
theorem cover_out (p : Vec F S4x4096 .f32) (y : S4x4096.Idx) :
    ∃ pc ∈ ([⟨rOut, p⟩] : List (View.Piece (Elt F) S4x4096 .f32)), y ∈ pc.1.set :=
  View.cover_of_tiled [⟨rOut, p⟩] S4x4096.size (by rfl) y

set_option maxHeartbeats 1000000 in
/-- The body on six whole buffers: the four inputs' at contents `h0 h1 p0 p1`, the two results' at anything. It reads
    the inputs whole, reads each result's buffer once without using the value, and overwrites each result's buffer
    whole with its payload; it ends with the inputs' buffers as they were and the results' at `simPath h0 p0` and
    `simGeno h1 p1`. -/
theorem sound_kernel (c : Dev nD) (E : Set ℕ) (i : grid0.Coords)
    (arg1 : Memref sig .tc .vmem S4096x256 .f32) (harg1 : arg1.IsWhole) (arg2 : Memref sig .tc .vmem S4096x256 .f32) (harg2 : arg2.IsWhole)
    (arg3 : Memref sig .tc .vmem S4x256 .f32) (harg3 : arg3.IsWhole) (arg4 : Memref sig .tc .vmem S4x256 .f32) (harg4 : arg4.IsWhole)
    (arg5 : Memref sig .tc .vmem S4x4096 .f32) (harg5 : arg5.IsWhole) (arg6 : Memref sig .tc .vmem S4x4096 .f32) (harg6 : arg6.IsWhole)
    (h0 h1 : Vec F S4096x256 .f32) (p0 p1 : Vec F S4x256 .f32) (K : PUnit → sProp 𝕄) :
    iprop(owns (c : Thread nD τ) arg1 fullShare h0 ∗ owns (c : Thread nD τ) arg2 fullShare h1
        ∗ owns (c : Thread nD τ) arg3 fullShare p0 ∗ owns (c : Thread nD τ) arg4 fullShare p1
        ∗ (∃ d, owns (c : Thread nD τ) arg5 fullShare d) ∗ (∃ d, owns (c : Thread nD τ) arg6 fullShare d)
        ∗ (iprop(owns (c : Thread nD τ) arg1 fullShare h0 ∗ owns (c : Thread nD τ) arg2 fullShare h1
            ∗ owns (c : Thread nD τ) arg3 fullShare p0 ∗ owns (c : Thread nD τ) arg4 fullShare p1
            ∗ owns (c : Thread nD τ) arg5 fullShare (simPath h0 p0) ∗ owns (c : Thread nD τ) arg6 fullShare (simGeno h1 p1)) -∗ K ⟨⟩))
      ⊢ wp frame (wpE (defs₀ (F := F)) Variants.none c none) E
          (cc0__sim_kernel i arg1 harg1 arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## What the body finds in the inputs' buffers -/

/-- An input window's current staging buffer holds its block at every point, whether or not it was fetched there
    (a window fetched at the first point only keeps its block index, so the block fetched then is still the
    point's): for any proof data whose array is the entry contents and whose body leaves the block in place. -/
theorem before_0_of {c : Dev nD} (dat : Dat τ (Elt F) Unit ℕ (UR sig nD τ) ℕ cfg0 c) (hA : dat.A 0 = atEntry m c (Pipeline.arrRef spec0 0))
    (hafter : ∀ t, dat.after 0 t = blockOf m c 0 t) (t : Fin cfg0.N) (d) : dat.before 0 t d = blockOf m c 0 t :=
  (dat.before_in_eq_fetched 0 rfl (fun _ => rfl) (fun _ _ _ => rfl) (fun t => by rw [hafter]; unfold Dat.blockOf blockOf; rw [hA]; try rfl) t d).trans
    (by unfold Dat.fetched Dat.blockOf blockOf; rw [hA]; try rfl)
theorem before_1_of {c : Dev nD} (dat : Dat τ (Elt F) Unit ℕ (UR sig nD τ) ℕ cfg0 c) (hA : dat.A 1 = atEntry m c (Pipeline.arrRef spec0 1))
    (hafter : ∀ t, dat.after 1 t = blockOf m c 1 t) (t : Fin cfg0.N) (d) : dat.before 1 t d = blockOf m c 1 t :=
  (dat.before_in_eq_fetched 1 rfl (fun _ => rfl) (fun _ _ _ => rfl) (fun t => by rw [hafter]; unfold Dat.blockOf blockOf; rw [hA]; try rfl) t d).trans
    (by unfold Dat.fetched Dat.blockOf blockOf; rw [hA]; try rfl)
theorem before_2_of {c : Dev nD} (dat : Dat τ (Elt F) Unit ℕ (UR sig nD τ) ℕ cfg0 c) (hA : dat.A 2 = atEntry m c (Pipeline.arrRef spec0 2))
    (hafter : ∀ t, dat.after 2 t = blockOf m c 2 t) (t : Fin cfg0.N) (d) : dat.before 2 t d = blockOf m c 2 t :=
  (dat.before_in_eq_fetched 2 rfl (fun _ => rfl) (fun _ _ _ => rfl) (fun t => by rw [hafter]; unfold Dat.blockOf blockOf; rw [hA]; try rfl) t d).trans
    (by unfold Dat.fetched Dat.blockOf blockOf; rw [hA]; try rfl)
theorem before_3_of {c : Dev nD} (dat : Dat τ (Elt F) Unit ℕ (UR sig nD τ) ℕ cfg0 c) (hA : dat.A 3 = atEntry m c (Pipeline.arrRef spec0 3))
    (hafter : ∀ t, dat.after 3 t = blockOf m c 3 t) (t : Fin cfg0.N) (d) : dat.before 3 t d = blockOf m c 3 t :=
  (dat.before_in_eq_fetched 3 rfl (fun _ => rfl) (fun _ _ _ => rfl) (fun t => by rw [hafter]; unfold Dat.blockOf blockOf; rw [hA]; try rfl) t d).trans
    (by unfold Dat.fetched Dat.blockOf blockOf; rw [hA]; try rfl)

theorem before_0 (c : Dev nD) (t : Fin cfg0.N) (d) : (data m 0 c).before 0 t d = blockOf m c 0 t :=
  before_0_of m (data m 0 c) (data_A m c 0) (after_0 m c) t d
theorem before_1 (c : Dev nD) (t : Fin cfg0.N) (d) : (data m 0 c).before 1 t d = blockOf m c 1 t :=
  before_1_of m (data m 0 c) (data_A m c 1) (after_1 m c) t d
theorem before_2 (c : Dev nD) (t : Fin cfg0.N) (d) : (data m 0 c).before 2 t d = blockOf m c 2 t :=
  before_2_of m (data m 0 c) (data_A m c 2) (after_2 m c) t d
theorem before_3 (c : Dev nD) (t : Fin cfg0.N) (d) : (data m 0 c).before 3 t d = blockOf m c 3 t :=
  before_3_of m (data m 0 c) (data_A m c 3) (after_3 m c) t d

/-! ## The body obligation, at a generic point -/

/-- What the body is called with at point `t`: the invariant, what the core owes, and the six current staging buffers. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- And what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- The body at any point: the inputs' buffers hold their blocks, so `sound_kernel` applies at them; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (data m 0 c).Φ t.succ = (data m 0 c).Φ t.castSucc from rfl,
    show (data m 0 c).owesAt () t.succ = (data m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (blockOf m c 0 t) (blockOf m c 1 t) (blockOf m c 2 t) (blockOf m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (data (F := F) m 0 c) (defs₀ (F := F)) Variants.none () Set.univ := fun t => by
  rw [bigSep_W0, bigSep_W0]
  exact sound_body m c t

/-! ## @main around the call -/

variable (ρ : Dev nD → PrngReg)

/-- @main is the host lines before the call, the call, and the lines after it: it reduces to the call continued by
    the later lines, entered at the contents `entry`. -/
theorem hmain (𝒱₀ : Variants) : Pipeline.HMainK (Ix := Unit) (Name := ℕ) (U := UR sig nD τ) (Lvl := ℕ) cfgs 0 defs₀ 𝒱₀ m (main (F := F)) (atEntry m)
      (fun _ => Pipeline.chain ((tail : List (List (HloOp τ sig (Elt F)))).map StableHlo.seq)) :=
  Pipeline.hmain_around cfgs 0 defs₀ 𝒱₀ m main [hostOps0] tail (by simp only [List.Forall]; exact hostOps0_sub)
    (by simp only [List.Forall]; exact hostOps0_fresh) main_chain

/-- The lines after the call touch only the call's arrays and the buffers that bypass it: each touches unscoped
    TensorCore references only, and with nothing prefetched every such reference is one or the other. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)
/-- They allocate nothing. -/
theorem sfx_fresh : ∀ ops ∈ (tail : List (List (HloOp τ sig (Elt F)))), ∀ op ∈ ops, op.fresh = ∅ :=
  fun ops hops op hop => (List.forall_iff_forall_mem.mp (tail_fresh ops hops)) op hop
/-- And they write no array of the call. -/
theorem sfx_keeps : ∀ ops ∈ (tail : List (List (HloOp τ sig (Elt F)))), ∀ op ∈ ops,
    ∀ w, Proc.devRef .tc (Pipeline.arrRef spec0 w) ∉ op.writes :=
  fun ops hops op hop w => (List.forall_iff_forall_mem.mp (tail_keeps _ (arr_mem_kept w) ops hops)) op hop

/-- An argument is found by the call as launched: no line before the call writes it. -/
theorem entry_kept (c : Dev nD) (b : Ref sig .tc) (hb : b ∈ args) : atEntry m c b = m ((c : Thread nD τ).loc b) :=
  StableHlo.after_of_forall_not_mem (b := Proc.devRef .tc b) _ _ (List.forall_iff_forall_mem.mp (by
    simp only [List.flatten_cons, List.flatten_nil, List.append_nil]
    exact hostOps0_keeps b hb))

/-- An argument that is no window's array ends as launched: the call passes it by and no later line writes it. -/
theorem tail_kept (dats : (p : Fin 1) → (c : Dev nD) → Dat τ (Elt F) Unit ℕ (UR sig nD τ) ℕ (cfgs p) c) (c : Dev nD)
    (b : Ref sig .tc) (hb : b ∈ kept) (ha : b ∈ args) (hw : ∀ w, Pipeline.arrRef spec0 w ≠ b) :
    Pipeline.afterTail₀ cfgs dats 0 (entry m) tail c b = m ((c : Thread nD τ).loc b) := by
  unfold Pipeline.afterTail₀
  rw [StableHlo.after_of_forall_not_mem (b := Proc.devRef .tc b) _ _ (fun op hop => by
      obtain ⟨ops, hops, hop⟩ := List.mem_flatten.mp hop
      exact (List.forall_iff_forall_mem.mp (tail_keeps b hb ops hops)) op hop),
    Pipeline.withArrays_of_ne _ c (entry m c) _ b hw]
  exact entry_kept m c b ha

/-! ## The run and the frame -/

set_option backward.isDefEq.respectTransparency.types false in
/-- At the compiled mesh, for any values, from any memory with zero counters: every weakly fair execution of @main on the
    TensorCores terminates, and every final state has every array of the call at what the library computes from the
    proof data and every other unscoped buffer as the lines after the call leave it. -/
theorem run_main : θ_run defs (onTc (τ := τ) (main (F := F))) (s₀ m ρ)
    (Pipeline.FramePost cfgs (data m) 0 (Pipeline.afterTail₀ cfgs (data m) 0 (entry m) tail)) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry m) (opss := tail) (hsub := sfx_sub) (hfresh := sfx_fresh) (hkeep := sfx_keeps)
    (hmain := hmain m Variants.none) (hA := data_A m) (hΦ := fun _ _ => rfl)

/-- The six arguments in a final state of that run: the two activation matrices are arrays of input windows, which
    end at their entry contents; the other four are arrays of no window and end as the later lines leave them; and no
    host line writes any of the six. -/
theorem args_kept (r : PUnit × MemSt nD τ sig (Elt F))
    (h : Pipeline.FramePost cfgs (data m) 0 (Pipeline.afterTail₀ cfgs (data m) 0 (entry m) tail) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).1 0).trans (((data m 0 c).arrAt_in 0 rfl _).trans ((data_A m c 0).trans (entry_kept m c main_arg0 (by decide)))),
   ((h c).1 1).trans (((data m 0 c).arrAt_in 1 rfl _).trans ((data_A m c 1).trans (entry_kept m c main_arg1 (by decide)))),
   ((h c).2 main_arg2 (Pipeline.mem_restRefs_of main_arg2 (by decide) (by decide))).trans (tail_kept m (data m) c main_arg2 (by decide) (by decide) (by decide)),
   ((h c).2 main_arg3 (Pipeline.mem_restRefs_of main_arg3 (by decide) (by decide))).trans (tail_kept m (data m) c main_arg3 (by decide) (by decide) (by decide)),
   ((h c).2 main_arg4 (Pipeline.mem_restRefs_of main_arg4 (by decide) (by decide))).trans (tail_kept m (data m) c main_arg4 (by decide) (by decide) (by decide)),
   ((h c).2 main_arg5 (Pipeline.mem_restRefs_of main_arg5 (by decide) (by decide))).trans (tail_kept m (data m) c main_arg5 (by decide) (by decide) (by decide))⟩

/-- THE FRAME: @main runs and its six argument arrays end unchanged, at any `F`. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => args_kept m r h c) (run_main m ρ)

end Cert.Kernel.Sim

end
-- ==== Proof.SimIdeal.lean ====
/-
  The proof data of the one pallas_call of `KernelIdeal`'s @main, shared by the frame proof and the value proof.
  The call runs on a grid of 4 points. Point t stages rows 4096·t … 4096·t+4095 of the two activation matrices
  (windows 0, 1), the two whole 4×256 prototype-mean matrices (windows 2, 3, computed by the host lines before the
  call), and writes back columns 4096·t … 4096·t+4095 of the two 4×16384 results (windows 4, 5).
  At a point the body stores into each result's staging buffer ONE whole-buffer piece: the product of the prototype
  means with the row-normalised activation block (the skeleton's two payloads).
-/
import proofs.«124243_j46462956208617_2_alg».proof.Proof.Gen.KernelIdeal.Launch
import proofs.«124243_j46462956208617_2_alg».proof.Proof.Gen.KernelIdeal.Skeleton
import proofs.«124243_j46462956208617_2_alg».proof.Proof.Gen.KernelIdeal.Points
import Idealize.ShloMosaic.Lib.Pipeline.FrameBody
import Idealize.ShloMosaic.Lib.Pipeline.FrameSuffix

noncomputable section

namespace Cert.KernelIdeal.Sim

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-- The stretches of host lines after the call, in order. -/
abbrev tail : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19, hostOps1_20, hostOps1_21, hostOps1_22, hostOps1_23, hostOps1_24, hostOps1_25, hostOps1_26, hostOps1_27,
   hostOps1_28]

/-- Core `c`'s buffer contents when the call is entered: the launch contents after the host lines before the call. -/
abbrev entry (c : Dev nD) : Valuation τ sig (Elt F) := StableHlo.after (List.flatten [hostOps0]) (fun b => m (c, b))
/-- The same read at a TensorCore reference. -/
abbrev atEntry (c : Dev nD) (b : Ref sig .tc) : Buf (Elt F) ((c : Thread nD τ).loc b) := entry m c (Proc.devRef .tc b)

/-- Window `w`'s block at point `t`, read off its array as the call finds it. -/
def blockOf (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The whole-buffer rectangles the body loads and stores through. -/
abbrev rAct : Rect S4096x256 := Rect.unit (s := S4096x256) ![0, 0] S4096x256.size Facts₀.inb_S4096x256_S4096x256_0_0
abbrev rMean : Rect S4x256 := Rect.unit (s := S4x256) ![0, 0] S4x256.size Facts₀.inb_S4x256_S4x256_0_0
abbrev rOut : Rect S4x4096 := Rect.unit (s := S4x4096) ![0, 0] S4x4096.size Facts₀.inb_S4x4096_S4x4096_0_0

/-- What the body leaves in the first result's staging buffer, from the activation block and the prototype means:
    its one store, a whole-buffer piece. -/
def simPath (h : Vec F S4096x256 .f32) (p : Vec F S4x256 .f32) : Vec F S4x4096 .f32 :=
  View.canon [⟨rOut, k0_pay1 (View.ld h rAct) (View.ld p rMean)⟩]

/-- The same for the second result. -/
def simGeno (h : Vec F S4096x256 .f32) (p : Vec F S4x256 .f32) : Vec F S4x4096 .f32 :=
  View.canon [⟨rOut, k0_pay2 (View.ld h rAct) (View.ld p rMean)⟩]

/-- The call's proof data on core `c`: the arrays as the call finds them; after the body at point `t` each input's
    buffer at its block and each result's at its piece; the class's invariant; nothing owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockOf m c 0 t
    | ⟨1, _⟩ => blockOf m c 1 t
    | ⟨2, _⟩ => blockOf m c 2 t
    | ⟨3, _⟩ => blockOf m c 3 t
    | ⟨4, _⟩ => simPath (blockOf m c 0 t) (blockOf m c 2 t)
    | ⟨5, _⟩ => simGeno (blockOf m c 1 t) (blockOf m c 3 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after_0 (c : Dev nD) (t : Fin cfg0.N) : (data m 0 c).after 0 t = blockOf m c 0 t := by dsimp only [data]
theorem after_1 (c : Dev nD) (t : Fin cfg0.N) : (data m 0 c).after 1 t = blockOf m c 1 t := by dsimp only [data]
theorem after_2 (c : Dev nD) (t : Fin cfg0.N) : (data m 0 c).after 2 t = blockOf m c 2 t := by dsimp only [data]
theorem after_3 (c : Dev nD) (t : Fin cfg0.N) : (data m 0 c).after 3 t = blockOf m c 3 t := by dsimp only [data]
theorem after_4 (c : Dev nD) (t : Fin cfg0.N) :
    (data m 0 c).after 4 t = simPath (blockOf m c 0 t) (blockOf m c 2 t) := by dsimp only [data]
theorem after_5 (c : Dev nD) (t : Fin cfg0.N) :
    (data m 0 c).after 5 t = simGeno (blockOf m c 1 t) (blockOf m c 3 t) := by dsimp only [data]

end Cert.KernelIdeal.Sim

end
-- ==== Proof.FrameIdeal.lean ====
/-
  The FRAME of `KernelIdeal`: @main runs — every weakly fair execution terminates, nothing faulting — and its six
  argument arrays end as launched.

  @main is 34 host lines, one pallas_call on a grid of 4 points, and 149 host lines in 29 stretches. The argument:
  * no host line, before or after the call, writes an argument array or (after the call) an array the call's windows
    stage: each line writes its own result buffer only, and that buffer is told apart from these by name;
  * the call's body, on whole staging buffers, reads its four inputs, reads each result's buffer once without using
    the value, and overwrites each result's buffer whole: the inputs' buffers are left as found and each result's
    buffer at its one whole-buffer piece;
  * so the library's frame run around a call applies with the shared proof data: the two activation matrices, staged
    by input windows, end at their entry contents; the other four arguments, staged by no window, end as the later
    lines leave them, which is as launched.
-/
import proofs.«124243_j46462956208617_2_alg».proof.Proof.SimIdeal
import Idealize.ShloMosaic.Lib.Pipeline.FrameBody
import Idealize.ShloMosaic.Lib.Pipeline.FrameSuffix
import Idealize.ShloMosaic.Lib.Ring
import Idealize.ShloMosaic.Lib.Tactic

-- membership of an index in a whole-buffer rectangle of these extents recurses once per coordinate of the long axis
set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The host lines around the call

Every host line writes one buffer, its own result. The buffers whose contents the frame speaks of — the six arrays
the call's windows stage and the four arguments no window stages — are the result of no line, before or after the call. -/

/-- The buffers that no host line may write: the windows' arrays, then the remaining arguments. -/
def kept : List (Ref sig .tc) :=
  [main_arg0, main_arg1, main_v12, main_v25, main_v26_0, main_v26_1, main_arg2, main_arg3, main_arg4, main_arg5]

/-- Every window's array is among them. -/
theorem arr_mem_kept : ∀ w, Pipeline.arrRef spec0 w ∈ kept := by decide

theorem hostOps1_fresh : (hostOps1 : List (HloOp τ sig (Elt F))).Forall fun op => op.fresh = ∅ := by
  simp only [List.Forall]; repeat' constructor
theorem hostOps1_keeps (b : Ref sig .tc) (hb : b ∈ kept) :
    (hostOps1 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_1_fresh : (hostOps1_1 : List (HloOp τ sig (Elt F))).Forall fun op => op.fresh = ∅ := by
  simp only [List.Forall]; repeat' constructor
theorem hostOps1_1_keeps (b : Ref sig .tc) (hb : b ∈ kept) :
    (hostOps1_1 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_2_fresh : (hostOps1_2 : List (HloOp τ sig (Elt F))).Forall fun op => op.fresh = ∅ := by
  simp only [List.Forall]; repeat' constructor
theorem hostOps1_2_keeps (b : Ref sig .tc) (hb : b ∈ kept) :
    (hostOps1_2 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_3_fresh : (hostOps1_3 : List (HloOp τ sig (Elt F))).Forall fun op => op.fresh = ∅ := by
  simp only [List.Forall]; repeat' constructor
theorem hostOps1_3_keeps (b : Ref sig .tc) (hb : b ∈ kept) :
    (hostOps1_3 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_4_fresh : (hostOps1_4 : List (HloOp τ sig (Elt F))).Forall fun op => op.fresh = ∅ := by
  simp only [List.Forall]; repeat' constructor
theorem hostOps1_4_keeps (b : Ref sig .tc) (hb : b ∈ kept) :
    (hostOps1_4 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_5_fresh : (hostOps1_5 : List (HloOp τ sig (Elt F))).Forall fun op => op.fresh = ∅ := by
  simp only [List.Forall]; repeat' constructor
theorem hostOps1_5_keeps (b : Ref sig .tc) (hb : b ∈ kept) :
    (hostOps1_5 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_6_fresh : (hostOps1_6 : List (HloOp τ sig (Elt F))).Forall fun op => op.fresh = ∅ := by
  simp only [List.Forall]; repeat' constructor
theorem hostOps1_6_keeps (b : Ref sig .tc) (hb : b ∈ kept) :
    (hostOps1_6 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_7_fresh : (hostOps1_7 : List (HloOp τ sig (Elt F))).Forall fun op => op.fresh = ∅ := by
  simp only [List.Forall]; repeat' constructor
theorem hostOps1_7_keeps (b : Ref sig .tc) (hb : b ∈ kept) :
    (hostOps1_7 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_8_fresh : (hostOps1_8 : List (HloOp τ sig (Elt F))).Forall fun op => op.fresh = ∅ := by
  simp only [List.Forall]; repeat' constructor
theorem hostOps1_8_keeps (b : Ref sig .tc) (hb : b ∈ kept) :
    (hostOps1_8 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_9_fresh : (hostOps1_9 : List (HloOp τ sig (Elt F))).Forall fun op => op.fresh = ∅ := by
  simp only [List.Forall]; repeat' constructor
theorem hostOps1_9_keeps (b : Ref sig .tc) (hb : b ∈ kept) :
    (hostOps1_9 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_10_fresh : (hostOps1_10 : List (HloOp τ sig (Elt F))).Forall fun op => op.fresh = ∅ := by
  simp only [List.Forall]; repeat' constructor
theorem hostOps1_10_keeps (b : Ref sig .tc) (hb : b ∈ kept) :
    (hostOps1_10 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_10, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_11_fresh : (hostOps1_11 : List (HloOp τ sig (Elt F))).Forall fun op => op.fresh = ∅ := by
  simp only [List.Forall]; repeat' constructor
theorem hostOps1_11_keeps (b : Ref sig .tc) (hb : b ∈ kept) :
    (hostOps1_11 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_11, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_12_fresh : (hostOps1_12 : List (HloOp τ sig (Elt F))).Forall fun op => op.fresh = ∅ := by
  simp only [List.Forall]; repeat' constructor
theorem hostOps1_12_keeps (b : Ref sig .tc) (hb : b ∈ kept) :
    (hostOps1_12 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_12, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_13_fresh : (hostOps1_13 : List (HloOp τ sig (Elt F))).Forall fun op => op.fresh = ∅ := by
  simp only [List.Forall]; repeat' constructor
theorem hostOps1_13_keeps (b : Ref sig .tc) (hb : b ∈ kept) :
    (hostOps1_13 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_13, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_14_fresh : (hostOps1_14 : List (HloOp τ sig (Elt F))).Forall fun op => op.fresh = ∅ := by
  simp only [List.Forall]; repeat' constructor
theorem hostOps1_14_keeps (b : Ref sig .tc) (hb : b ∈ kept) :
    (hostOps1_14 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_14, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_15_fresh : (hostOps1_15 : List (HloOp τ sig (Elt F))).Forall fun op => op.fresh = ∅ := by
  simp only [List.Forall]; repeat' constructor
theorem hostOps1_15_keeps (b : Ref sig .tc) (hb : b ∈ kept) :
    (hostOps1_15 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_15, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_16_fresh : (hostOps1_16 : List (HloOp τ sig (Elt F))).Forall fun op => op.fresh = ∅ := by
  simp only [List.Forall]; repeat' constructor
theorem hostOps1_16_keeps (b : Ref sig .tc) (hb : b ∈ kept) :
    (hostOps1_16 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_16, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_17_fresh : (hostOps1_17 : List (HloOp τ sig (Elt F))).Forall fun op => op.fresh = ∅ := by
  simp only [List.Forall]; repeat' constructor
theorem hostOps1_17_keeps (b : Ref sig .tc) (hb : b ∈ kept) :
    (hostOps1_17 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_17, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_18_fresh : (hostOps1_18 : List (HloOp τ sig (Elt F))).Forall fun op => op.fresh = ∅ := by
  simp only [List.Forall]; repeat' constructor
theorem hostOps1_18_keeps (b : Ref sig .tc) (hb : b ∈ kept) :
    (hostOps1_18 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_18, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_19_fresh : (hostOps1_19 : List (HloOp τ sig (Elt F))).Forall fun op => op.fresh = ∅ := by
  simp only [List.Forall]; repeat' constructor
theorem hostOps1_19_keeps (b : Ref sig .tc) (hb : b ∈ kept) :
    (hostOps1_19 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_19, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_20_fresh : (hostOps1_20 : List (HloOp τ sig (Elt F))).Forall fun op => op.fresh = ∅ := by
  simp only [List.Forall]; repeat' constructor
theorem hostOps1_20_keeps (b : Ref sig .tc) (hb : b ∈ kept) :
    (hostOps1_20 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_20, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_21_fresh : (hostOps1_21 : List (HloOp τ sig (Elt F))).Forall fun op => op.fresh = ∅ := by
  simp only [List.Forall]; repeat' constructor
theorem hostOps1_21_keeps (b : Ref sig .tc) (hb : b ∈ kept) :
    (hostOps1_21 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_21, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_22_fresh : (hostOps1_22 : List (HloOp τ sig (Elt F))).Forall fun op => op.fresh = ∅ := by
  simp only [List.Forall]; repeat' constructor
theorem hostOps1_22_keeps (b : Ref sig .tc) (hb : b ∈ kept) :
    (hostOps1_22 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_22, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_23_fresh : (hostOps1_23 : List (HloOp τ sig (Elt F))).Forall fun op => op.fresh = ∅ := by
  simp only [List.Forall]; repeat' constructor
theorem hostOps1_23_keeps (b : Ref sig .tc) (hb : b ∈ kept) :
    (hostOps1_23 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_23, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_24_fresh : (hostOps1_24 : List (HloOp τ sig (Elt F))).Forall fun op => op.fresh = ∅ := by
  simp only [List.Forall]; repeat' constructor
theorem hostOps1_24_keeps (b : Ref sig .tc) (hb : b ∈ kept) :
    (hostOps1_24 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_24, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_25_fresh : (hostOps1_25 : List (HloOp τ sig (Elt F))).Forall fun op => op.fresh = ∅ := by
  simp only [List.Forall]; repeat' constructor
theorem hostOps1_25_keeps (b : Ref sig .tc) (hb : b ∈ kept) :
    (hostOps1_25 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_25, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_26_fresh : (hostOps1_26 : List (HloOp τ sig (Elt F))).Forall fun op => op.fresh = ∅ := by
  simp only [List.Forall]; repeat' constructor
theorem hostOps1_26_keeps (b : Ref sig .tc) (hb : b ∈ kept) :
    (hostOps1_26 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_26, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_27_fresh : (hostOps1_27 : List (HloOp τ sig (Elt F))).Forall fun op => op.fresh = ∅ := by
  simp only [List.Forall]; repeat' constructor
theorem hostOps1_27_keeps (b : Ref sig .tc) (hb : b ∈ kept) :
    (hostOps1_27 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_27, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem hostOps1_28_fresh : (hostOps1_28 : List (HloOp τ sig (Elt F))).Forall fun op => op.fresh = ∅ := by
  simp only [List.Forall]; repeat' constructor
theorem hostOps1_28_keeps (b : Ref sig .tc) (hb : b ∈ kept) :
    (hostOps1_28 : List (HloOp τ sig (Elt F))).Forall fun op => Proc.devRef .tc b ∉ op.writes := by
  simp only [kept, List.mem_cons, List.mem_nil_iff, or_false] at hb
  rcases hb with rfl | rfl | rfl | rfl | rfl | rfl | rfl | rfl | rfl | rfl
  all_goals
    simp only [hostOps1_28, List.Forall, StableHlo.nullary_writes, StableHlo.unary_writes, StableHlo.binary_writes, StableHlo.ternary_writes, StableHlo.reshape_writes, Finset.mem_singleton]
    repeat' apply And.intro
    all_goals exact StableHlo.devRef_ne_of_ne (by decide)

theorem hostOps0_fresh : (hostOps0 : List (HloOp τ sig (Elt F))).Forall fun op => op.fresh = ∅ := by
  simp only [List.Forall]; repeat' constructor
/-- @main's six arguments. -/
def args : List (Ref sig .tc) := [main_arg0, main_arg1, main_arg2, main_arg3, main_arg4, main_arg5]

/-- No line before the call writes an argument (two of the windows' arrays ARE results of lines before the call,
    so this is said of the arguments only). -/
theorem hostOps0_keeps (b : Ref sig .tc) (hb : b ∈ args) :
    (hostOps0 : List (HloOp τ sig (Elt F))).Forall fun op => Proc.devRef .tc b ∉ op.writes := by
  simp only [args, List.mem_cons, List.mem_nil_iff, or_false] at hb
  rcases hb with rfl | rfl | rfl | rfl | rfl | rfl
  all_goals
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- A property of every stretch after the call holds of every member of `tail`. -/
theorem tail_all {P : List (HloOp τ sig (Elt F)) → Prop}
    (h : P hostOps1 ∧ P hostOps1_1 ∧ P hostOps1_2 ∧ P hostOps1_3 ∧ P hostOps1_4 ∧ P hostOps1_5 ∧ P hostOps1_6 ∧ P hostOps1_7 ∧ P hostOps1_8 ∧ P hostOps1_9 ∧ P hostOps1_10 ∧ P hostOps1_11 ∧ P hostOps1_12 ∧ P hostOps1_13 ∧ P hostOps1_14 ∧ P hostOps1_15 ∧ P hostOps1_16 ∧ P hostOps1_17 ∧ P hostOps1_18 ∧ P hostOps1_19 ∧ P hostOps1_20 ∧ P hostOps1_21 ∧ P hostOps1_22 ∧ P hostOps1_23 ∧ P hostOps1_24 ∧ P hostOps1_25 ∧ P hostOps1_26 ∧ P hostOps1_27 ∧ P hostOps1_28) :
    ∀ ops ∈ (tail : List (List (HloOp τ sig (Elt F)))), P ops := by
  intro ops hops
  obtain ⟨h0, h1, h2, h3, h4, h5, h6, h7, h8, h9, h10, h11, h12, h13, h14, h15, h16, h17, h18, h19, h20, h21, h22, h23, h24, h25, h26, h27, h28⟩ := h
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl <;> assumption

/-- The lines after the call touch TensorCore references only, -/
theorem tail_sub : ∀ ops ∈ (tail : List (List (HloOp τ sig (Elt F)))), ops.Forall fun op => op.bufs ⊆ StableHlo.tcRefs τ sig :=
  tail_all ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub⟩
/-- allocate nothing, -/
theorem tail_fresh : ∀ ops ∈ (tail : List (List (HloOp τ sig (Elt F)))), ops.Forall fun op => op.fresh = ∅ :=
  tail_all ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh⟩
/-- and write no kept buffer. -/
theorem tail_keeps (b : Ref sig .tc) (hb : b ∈ kept) :
    ∀ ops ∈ (tail : List (List (HloOp τ sig (Elt F)))), ops.Forall fun op => Proc.devRef .tc b ∉ op.writes :=
  tail_all ⟨hostOps1_keeps b hb, hostOps1_1_keeps b hb, hostOps1_2_keeps b hb, hostOps1_3_keeps b hb, hostOps1_4_keeps b hb, hostOps1_5_keeps b hb, hostOps1_6_keeps b hb, hostOps1_7_keeps b hb, hostOps1_8_keeps b hb, hostOps1_9_keeps b hb, hostOps1_10_keeps b hb, hostOps1_11_keeps b hb, hostOps1_12_keeps b hb, hostOps1_13_keeps b hb, hostOps1_14_keeps b hb, hostOps1_15_keeps b hb, hostOps1_16_keeps b hb, hostOps1_17_keeps b hb, hostOps1_18_keeps b hb, hostOps1_19_keeps b hb, hostOps1_20_keeps b hb, hostOps1_21_keeps b hb, hostOps1_22_keeps b hb, hostOps1_23_keeps b hb, hostOps1_24_keeps b hb, hostOps1_25_keeps b hb, hostOps1_26_keeps b hb, hostOps1_27_keeps b hb, hostOps1_28_keeps b hb⟩

local notation "𝕄" => MT nD τ sig Unit (Elt F) ℕ (UR sig nD τ) ℕ

/-! ## The body on whole staging buffers -/

/-- The one piece stored into a result's buffer is the whole buffer, so it covers it. -/
theorem cover_out (p : Vec F S4x4096 .f32) (y : S4x4096.Idx) :
    ∃ pc ∈ ([⟨rOut, p⟩] : List (View.Piece (Elt F) S4x4096 .f32)), y ∈ pc.1.set :=
  View.cover_of_tiled [⟨rOut, p⟩] S4x4096.size (by rfl) y

set_option maxHeartbeats 1000000 in
/-- The body on six whole buffers: the four inputs' at contents `h0 h1 p0 p1`, the two results' at anything. It reads
    the inputs whole, reads each result's buffer once without using the value, and overwrites each result's buffer
    whole with its payload; it ends with the inputs' buffers as they were and the results' at `simPath h0 p0` and
    `simGeno h1 p1`. -/
theorem sound_kernel (c : Dev nD) (E : Set ℕ) (i : grid0.Coords)
    (arg1 : Memref sig .tc .vmem S4096x256 .f32) (harg1 : arg1.IsWhole) (arg2 : Memref sig .tc .vmem S4096x256 .f32) (harg2 : arg2.IsWhole)
    (arg3 : Memref sig .tc .vmem S4x256 .f32) (harg3 : arg3.IsWhole) (arg4 : Memref sig .tc .vmem S4x256 .f32) (harg4 : arg4.IsWhole)
    (arg5 : Memref sig .tc .vmem S4x4096 .f32) (harg5 : arg5.IsWhole) (arg6 : Memref sig .tc .vmem S4x4096 .f32) (harg6 : arg6.IsWhole)
    (h0 h1 : Vec F S4096x256 .f32) (p0 p1 : Vec F S4x256 .f32) (K : PUnit → sProp 𝕄) :
    iprop(owns (c : Thread nD τ) arg1 fullShare h0 ∗ owns (c : Thread nD τ) arg2 fullShare h1
        ∗ owns (c : Thread nD τ) arg3 fullShare p0 ∗ owns (c : Thread nD τ) arg4 fullShare p1
        ∗ (∃ d, owns (c : Thread nD τ) arg5 fullShare d) ∗ (∃ d, owns (c : Thread nD τ) arg6 fullShare d)
        ∗ (iprop(owns (c : Thread nD τ) arg1 fullShare h0 ∗ owns (c : Thread nD τ) arg2 fullShare h1
            ∗ owns (c : Thread nD τ) arg3 fullShare p0 ∗ owns (c : Thread nD τ) arg4 fullShare p1
            ∗ owns (c : Thread nD τ) arg5 fullShare (simPath h0 p0) ∗ owns (c : Thread nD τ) arg6 fullShare (simGeno h1 p1)) -∗ K ⟨⟩))
      ⊢ wp frame (wpE (defs₀ (F := F)) Variants.none c none) E
          (cc0__sim_kernel i arg1 harg1 arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## What the body finds in the inputs' buffers -/

/-- An input window's current staging buffer holds its block at every point, whether or not it was fetched there
    (a window fetched at the first point only keeps its block index, so the block fetched then is still the
    point's): for any proof data whose array is the entry contents and whose body leaves the block in place. -/
theorem before_0_of {c : Dev nD} (dat : Dat τ (Elt F) Unit ℕ (UR sig nD τ) ℕ cfg0 c) (hA : dat.A 0 = atEntry m c (Pipeline.arrRef spec0 0))
    (hafter : ∀ t, dat.after 0 t = blockOf m c 0 t) (t : Fin cfg0.N) (d) : dat.before 0 t d = blockOf m c 0 t :=
  (dat.before_in_eq_fetched 0 rfl (fun _ => rfl) (fun _ _ _ => rfl) (fun t => by rw [hafter]; unfold Dat.blockOf blockOf; rw [hA]; try rfl) t d).trans
    (by unfold Dat.fetched Dat.blockOf blockOf; rw [hA]; try rfl)
theorem before_1_of {c : Dev nD} (dat : Dat τ (Elt F) Unit ℕ (UR sig nD τ) ℕ cfg0 c) (hA : dat.A 1 = atEntry m c (Pipeline.arrRef spec0 1))
    (hafter : ∀ t, dat.after 1 t = blockOf m c 1 t) (t : Fin cfg0.N) (d) : dat.before 1 t d = blockOf m c 1 t :=
  (dat.before_in_eq_fetched 1 rfl (fun _ => rfl) (fun _ _ _ => rfl) (fun t => by rw [hafter]; unfold Dat.blockOf blockOf; rw [hA]; try rfl) t d).trans
    (by unfold Dat.fetched Dat.blockOf blockOf; rw [hA]; try rfl)
theorem before_2_of {c : Dev nD} (dat : Dat τ (Elt F) Unit ℕ (UR sig nD τ) ℕ cfg0 c) (hA : dat.A 2 = atEntry m c (Pipeline.arrRef spec0 2))
    (hafter : ∀ t, dat.after 2 t = blockOf m c 2 t) (t : Fin cfg0.N) (d) : dat.before 2 t d = blockOf m c 2 t :=
  (dat.before_in_eq_fetched 2 rfl (fun _ => rfl) (fun _ _ _ => rfl) (fun t => by rw [hafter]; unfold Dat.blockOf blockOf; rw [hA]; try rfl) t d).trans
    (by unfold Dat.fetched Dat.blockOf blockOf; rw [hA]; try rfl)
theorem before_3_of {c : Dev nD} (dat : Dat τ (Elt F) Unit ℕ (UR sig nD τ) ℕ cfg0 c) (hA : dat.A 3 = atEntry m c (Pipeline.arrRef spec0 3))
    (hafter : ∀ t, dat.after 3 t = blockOf m c 3 t) (t : Fin cfg0.N) (d) : dat.before 3 t d = blockOf m c 3 t :=
  (dat.before_in_eq_fetched 3 rfl (fun _ => rfl) (fun _ _ _ => rfl) (fun t => by rw [hafter]; unfold Dat.blockOf blockOf; rw [hA]; try rfl) t d).trans
    (by unfold Dat.fetched Dat.blockOf blockOf; rw [hA]; try rfl)

theorem before_0 (c : Dev nD) (t : Fin cfg0.N) (d) : (data m 0 c).before 0 t d = blockOf m c 0 t :=
  before_0_of m (data m 0 c) (data_A m c 0) (after_0 m c) t d
theorem before_1 (c : Dev nD) (t : Fin cfg0.N) (d) : (data m 0 c).before 1 t d = blockOf m c 1 t :=
  before_1_of m (data m 0 c) (data_A m c 1) (after_1 m c) t d
theorem before_2 (c : Dev nD) (t : Fin cfg0.N) (d) : (data m 0 c).before 2 t d = blockOf m c 2 t :=
  before_2_of m (data m 0 c) (data_A m c 2) (after_2 m c) t d
theorem before_3 (c : Dev nD) (t : Fin cfg0.N) (d) : (data m 0 c).before 3 t d = blockOf m c 3 t :=
  before_3_of m (data m 0 c) (data_A m c 3) (after_3 m c) t d

/-! ## The body obligation, at a generic point -/

/-- What the body is called with at point `t`: the invariant, what the core owes, and the six current staging buffers. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- And what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- The body at any point: the inputs' buffers hold their blocks, so `sound_kernel` applies at them; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (data m 0 c).Φ t.succ = (data m 0 c).Φ t.castSucc from rfl,
    show (data m 0 c).owesAt () t.succ = (data m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (blockOf m c 0 t) (blockOf m c 1 t) (blockOf m c 2 t) (blockOf m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (data (F := F) m 0 c) (defs₀ (F := F)) Variants.none () Set.univ := fun t => by
  rw [bigSep_W0, bigSep_W0]
  exact sound_body m c t

/-! ## @main around the call -/

variable (ρ : Dev nD → PrngReg)

/-- @main is the host lines before the call, the call, and the lines after it: it reduces to the call continued by
    the later lines, entered at the contents `entry`. -/
theorem hmain (𝒱₀ : Variants) : Pipeline.HMainK (Ix := Unit) (Name := ℕ) (U := UR sig nD τ) (Lvl := ℕ) cfgs 0 defs₀ 𝒱₀ m (main (F := F)) (atEntry m)
      (fun _ => Pipeline.chain ((tail : List (List (HloOp τ sig (Elt F)))).map StableHlo.seq)) :=
  Pipeline.hmain_around cfgs 0 defs₀ 𝒱₀ m main [hostOps0] tail (by simp only [List.Forall]; exact hostOps0_sub)
    (by simp only [List.Forall]; exact hostOps0_fresh) main_chain

/-- The lines after the call touch only the call's arrays and the buffers that bypass it: each touches unscoped
    TensorCore references only, and with nothing prefetched every such reference is one or the other. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)
/-- They allocate nothing. -/
theorem sfx_fresh : ∀ ops ∈ (tail : List (List (HloOp τ sig (Elt F)))), ∀ op ∈ ops, op.fresh = ∅ :=
  fun ops hops op hop => (List.forall_iff_forall_mem.mp (tail_fresh ops hops)) op hop
/-- And they write no array of the call. -/
theorem sfx_keeps : ∀ ops ∈ (tail : List (List (HloOp τ sig (Elt F)))), ∀ op ∈ ops,
    ∀ w, Proc.devRef .tc (Pipeline.arrRef spec0 w) ∉ op.writes :=
  fun ops hops op hop w => (List.forall_iff_forall_mem.mp (tail_keeps _ (arr_mem_kept w) ops hops)) op hop

/-- An argument is found by the call as launched: no line before the call writes it. -/
theorem entry_kept (c : Dev nD) (b : Ref sig .tc) (hb : b ∈ args) : atEntry m c b = m ((c : Thread nD τ).loc b) :=
  StableHlo.after_of_forall_not_mem (b := Proc.devRef .tc b) _ _ (List.forall_iff_forall_mem.mp (by
    simp only [List.flatten_cons, List.flatten_nil, List.append_nil]
    exact hostOps0_keeps b hb))

/-- An argument that is no window's array ends as launched: the call passes it by and no later line writes it. -/
theorem tail_kept (dats : (p : Fin 1) → (c : Dev nD) → Dat τ (Elt F) Unit ℕ (UR sig nD τ) ℕ (cfgs p) c) (c : Dev nD)
    (b : Ref sig .tc) (hb : b ∈ kept) (ha : b ∈ args) (hw : ∀ w, Pipeline.arrRef spec0 w ≠ b) :
    Pipeline.afterTail₀ cfgs dats 0 (entry m) tail c b = m ((c : Thread nD τ).loc b) := by
  unfold Pipeline.afterTail₀
  rw [StableHlo.after_of_forall_not_mem (b := Proc.devRef .tc b) _ _ (fun op hop => by
      obtain ⟨ops, hops, hop⟩ := List.mem_flatten.mp hop
      exact (List.forall_iff_forall_mem.mp (tail_keeps b hb ops hops)) op hop),
    Pipeline.withArrays_of_ne _ c (entry m c) _ b hw]
  exact entry_kept m c b ha

/-! ## The run and the frame -/

set_option backward.isDefEq.respectTransparency.types false in
/-- At the compiled mesh, for any values, from any memory with zero counters: every weakly fair execution of @main on the
    TensorCores terminates, and every final state has every array of the call at what the library computes from the
    proof data and every other unscoped buffer as the lines after the call leave it. -/
theorem run_main : θ_run defs (onTc (τ := τ) (main (F := F))) (s₀ m ρ)
    (Pipeline.FramePost cfgs (data m) 0 (Pipeline.afterTail₀ cfgs (data m) 0 (entry m) tail)) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry m) (opss := tail) (hsub := sfx_sub) (hfresh := sfx_fresh) (hkeep := sfx_keeps)
    (hmain := hmain m Variants.none) (hA := data_A m) (hΦ := fun _ _ => rfl)

/-- The six arguments in a final state of that run: the two activation matrices are arrays of input windows, which
    end at their entry contents; the other four are arrays of no window and end as the later lines leave them; and no
    host line writes any of the six. -/
theorem args_kept (r : PUnit × MemSt nD τ sig (Elt F))
    (h : Pipeline.FramePost cfgs (data m) 0 (Pipeline.afterTail₀ cfgs (data m) 0 (entry m) tail) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).1 0).trans (((data m 0 c).arrAt_in 0 rfl _).trans ((data_A m c 0).trans (entry_kept m c main_arg0 (by decide)))),
   ((h c).1 1).trans (((data m 0 c).arrAt_in 1 rfl _).trans ((data_A m c 1).trans (entry_kept m c main_arg1 (by decide)))),
   ((h c).2 main_arg2 (Pipeline.mem_restRefs_of main_arg2 (by decide) (by decide))).trans (tail_kept m (data m) c main_arg2 (by decide) (by decide) (by decide)),
   ((h c).2 main_arg3 (Pipeline.mem_restRefs_of main_arg3 (by decide) (by decide))).trans (tail_kept m (data m) c main_arg3 (by decide) (by decide) (by decide)),
   ((h c).2 main_arg4 (Pipeline.mem_restRefs_of main_arg4 (by decide) (by decide))).trans (tail_kept m (data m) c main_arg4 (by decide) (by decide) (by decide)),
   ((h c).2 main_arg5 (Pipeline.mem_restRefs_of main_arg5 (by decide) (by decide))).trans (tail_kept m (data m) c main_arg5 (by decide) (by decide) (by decide))⟩

/-- THE FRAME: @main runs and its six argument arrays end unchanged, at any `F`. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => args_kept m r h c) (run_main m ρ)

end Cert.KernelIdeal.Sim

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.SimMath.lean ====
/-
  The mathematics of the prototype-similarity kernel, free of any program.

  A row h of activations is normalised as h_d / max(√(Σ_k h_k²), ε), ε the float 1e-12 (F.normalize). For real
  (finite) entries the sum of squares is a non-negative real, its square root a non-negative real, the maximum
  with ε > 0 a positive real, so every normalised entry is a real number.

  The reference averages, over the M prototypes m of a class, the dot products Σ_d x_d · y_{m,d} of a normalised
  row x with the normalised prototypes y_m; the kernel first averages the prototypes, Σ_m y_{m,d} / M, and takes one
  dot product with the average. Over the reals the two agree: the sum over m and the sum over d commute and the
  division by M is linear. At the infinities that linearity fails, which is why the entries are first shown real.
-/
import proofs.«124243_j46462956208617_2_alg».proof.Proof.LibReal

noncomputable section

namespace Cert.SimMath

open Idealize.ShloMosaic Cert.LibReal

/-- Row `b` of a matrix with 256 columns, as a function of the column. -/
def row {R : ℕ} (x : (⟨2, ![R, 256]⟩ : Shape).Idx → EReal) (b : Fin R) : Fin 256 → EReal := fun d => x (ValueIdx.ix2 b d)

/-- The float 1e-12 (the word 0x2B8CBCCC) as an extended real. -/
def eps : EReal := Ideal.ofBits .f32 0x2B8CBCCC#32

/-- It is the positive real (2²³ + 834764) · 2⁻⁶³. -/
theorem eps_eq : eps = (((9223372 : ℝ) * (2 : ℝ) ^ (-63 : ℤ) : ℝ) : EReal) := by
  unfold eps
  simp [Ideal.ofBits, Ideal.ieee, -EReal.coe_mul] <;> norm_num

theorem eps_pos : IsPos eps := by
  rw [eps_eq]; exact ⟨_, by positivity, rfl⟩

/-- The float 512.0 (the word 0x44000000) is the real 512. -/
theorem ofBits_512 : Ideal.ofBits .f32 0x44000000#32 = ((512 : ℝ) : EReal) := by
  simp [Ideal.ofBits, Ideal.ieee, -EReal.coe_mul] <;> norm_num

/-- The square root of a non-negative real is a non-negative real. -/
theorem IsNonneg.sqrt {x : EReal} (hx : IsNonneg x) : IsNonneg (Ideal.sqrt x) := by
  obtain ⟨r, hr, rfl⟩ := hx
  rw [Ideal.sqrt_coe, if_neg (not_lt.mpr hr)]
  exact ⟨Real.sqrt r, Real.sqrt_nonneg r, rfl⟩

/-- The larger of a non-negative real and a positive real is a positive real. -/
theorem IsNonneg.max_pos {x y : EReal} (hx : IsNonneg x) (hy : IsPos y) : IsPos (max x y) := by
  obtain ⟨a, ha, rfl⟩ := hx
  obtain ⟨b, hb, rfl⟩ := hy
  refine ⟨max a b, lt_max_of_lt_right hb, ?_⟩
  rcases le_total a b with h | h
  · rw [max_eq_right h, max_eq_right (by exact_mod_cast h)]
  · rw [max_eq_left h, max_eq_left (by exact_mod_cast h)]

/-- A real divided by a positive real is real. -/
theorem IsReal.div_pos {x y : EReal} (hx : IsReal x) (hy : IsPos y) : IsReal (Ideal.div x y) := by
  obtain ⟨b, hb, rfl⟩ := hy
  exact hx.div_coe hb.ne'

/-- The guarded norm of a row with sum of squares `s`: max(√s, ε). -/
def guard (s : EReal) : EReal := max (Ideal.sqrt s) eps

theorem guard_pos {s : EReal} (hs : IsNonneg s) : IsPos (guard s) := IsNonneg.max_pos (IsNonneg.sqrt hs) eps_pos

/-- Entry `d` of the normalised row: h_d / max(√(Σ_k h_k · h_k), ε). -/
def unit {D : ℕ} (h : Fin D → EReal) (d : Fin D) : EReal := Ideal.div (h d) (guard (∑ k, h k * h k))

/-- The normalised entries of a real row are real. -/
theorem unit_real {D : ℕ} {h : Fin D → EReal} (hh : ∀ d, IsReal (h d)) (d : Fin D) : IsReal (unit h d) :=
  IsReal.div_pos (hh d) (guard_pos (IsNonneg.sum _ _ fun k _ => (hh k).mul_self_nonneg))

/-- The coercion of a finite real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. For a real row x and real rows y_m: the mean over m of the dot products x · y_m is the dot product of
    the mean row with x. Both sides are the real number (Σ_m Σ_d x_d y_{m,d}) / n. -/
theorem mean_dot {M D : ℕ} (x : Fin D → EReal) (y : Fin M → Fin D → EReal)
    (hx : ∀ d, IsReal (x d)) (hy : ∀ m d, IsReal (y m d)) {n : ℝ} (hn : n ≠ 0) :
    Ideal.div (∑ m, ∑ d, x d * y m d) (n : EReal) = ∑ d, Ideal.div (∑ m, y m d) (n : EReal) * x d := by
  choose a ha using hx
  choose b hb using hy
  have hxe : x = fun d => (a d : EReal) := funext ha
  have hye : y = fun m d => (b m d : EReal) := funext fun m => funext fun d => hb m d
  subst hxe hye
  simp only [Ideal.div_coe hn, ← EReal.coe_mul, ← coe_sum]
  congr 1
  simp only [Finset.sum_mul]
  rw [Finset.sum_comm]
  exact Finset.sum_congr rfl fun d _ => Finset.sum_congr rfl fun m _ => by ring

end Cert.SimMath

end
-- ==== Proof.PayIdeal.lean ====
/-
  The kernel body's two stored values read at an entry, on the extended reals.
  The body normalises each of the 4096 rows of its activation block, h_d / max(√(Σ_k h_k²), ε), and multiplies the
  4×256 matrix of prototype means with the transpose of the normalised block: entry (c, r) of what it stores is
  Σ_k P[c, k] · unit(row r)_k.
-/
import proofs.«124243_j46462956208617_2_alg».proof.Proof.Gen.KernelIdeal.Skeleton
import proofs.«124243_j46462956208617_2_alg».proof.Proof.LibLayout
import proofs.«124243_j46462956208617_2_alg».proof.Proof.SimMath

noncomputable section

namespace Cert.KernelIdeal.SimValue

open Cert.KernelIdeal Cert.KernelIdeal.Gen
open Idealize.ShloMosaic Idealize.ShloMosaic.ValueIdx Cert.SimMath Cert.LibLayout

/-- The matmul record's free coordinate on the left is the result's row. -/
theorem dot_lhs0 (i : S4x4096.Idx) (q : dot_S4x256_S4096x256_S4x4096_1_1_0_0_n_n.contr.Idx) :
    (dot_S4x256_S4096x256_S4x4096_1_1_0_0_n_n.lhsIdx i q 0).val = (i 0).val := by
  unfold DotDims.lhsIdx
  rw [dif_neg (show ¬(0 : Fin S4x256.rank) ∈ dot_S4x256_S4096x256_S4x4096_1_1_0_0_n_n.lhsBatch by decide),
    dif_pos (show (0 : Fin S4x256.rank) ∈ dot_S4x256_S4096x256_S4x4096_1_1_0_0_n_n.lhsNonContracting by decide)]
  rfl

/-- The matmul record's free coordinate on the right is the result's column. -/
theorem dot_rhs0 (i : S4x4096.Idx) (q : dot_S4x256_S4096x256_S4x4096_1_1_0_0_n_n.contr.Idx) :
    (dot_S4x256_S4096x256_S4x4096_1_1_0_0_n_n.rhsIdx i q 0).val = (i 1).val := by
  unfold DotDims.rhsIdx
  rw [dif_neg (show ¬(0 : Fin S4096x256.rank) ∈ dot_S4x256_S4096x256_S4x4096_1_1_0_0_n_n.rhsBatch by decide),
    dif_pos (show (0 : Fin S4096x256.rank) ∈ dot_S4x256_S4096x256_S4x4096_1_1_0_0_n_n.rhsNonContracting by decide)]
  rfl

/-- The row-normalised block at (r, k): the row's entry over the row's guarded norm. -/
theorem normalised_apply (v0 : FVec Ideal S4096x256 .f32) (r : Fin 4096) (k : Fin 256) :
    divf v0 (broadcastTo S4096x256 (maximumf (sqrt (shapeCast S4096x1 (multiReduction .add [1] S4096 (mulf v0 v0) 0x00000000#32
        Facts₀.reduces_S4096x256_S4096 (.inl rfl) rfl) Facts₀.shapeCasts_S4096_S4096x1)) (broadcast S4096x1 (Scalar.ofBits .f32 0x2B8CBCCC#32)))
      Facts₀.broadcasts_S4096x1_S4096x256) (ix2 r k) = unit (row v0 r) k := by
  show Ideal.div (v0 (ix2 r k)) (broadcastTo S4096x256 _ Facts₀.broadcasts_S4096x1_S4096x256 (ix2 r k)) = _
  rw [broadcastTo_a1_ab_apply]
  show Ideal.div (v0 (ix2 r k)) (max (Ideal.sqrt (shapeCast S4096x1 _ Facts₀.shapeCasts_S4096_S4096x1 (ix2 r (0 : Fin 1)))) eps) = _
  rw [shapeCast_a_a1_apply]
  refine congrArg (fun s => Ideal.div (v0 (ix2 r k)) (max (Ideal.sqrt s) eps)) ?_
  exact sum_rows_apply (mulf v0 v0) Facts₀.reduces_S4096x256_S4096 (.inl rfl) rfl r

/-- The first stored value at (c, r). -/
theorem pay1_apply (v0 : FVec Ideal S4096x256 .f32) (v18 : FVec Ideal S4x256 .f32) (c : Fin 4) (r : Fin 4096) :
    k0_pay1 (F := Ideal) v0 v18 (ix2 c r) = ∑ k : Fin 256, v18 (ix2 c k) * unit (row v0 r) k := by
  unfold k0_pay1
  refine (matmul_rows_rows_apply dot_S4x256_S4096x256_S4x4096_1_1_0_0_n_n rfl rfl rfl rfl dot_lhs0 dot_rhs0 none _ _ c r).trans ?_
  refine Finset.sum_congr rfl fun k _ => ?_
  rw [normalised_apply, shapeCast_self]

/-- The second stored value at (c, r): the same computation on the other pair of operands. -/
theorem pay2_apply (v9 : FVec Ideal S4096x256 .f32) (v20 : FVec Ideal S4x256 .f32) (c : Fin 4) (r : Fin 4096) :
    k0_pay2 (F := Ideal) v9 v20 (ix2 c r) = ∑ k : Fin 256, v20 (ix2 c k) * unit (row v9 r) k := by
  unfold k0_pay2
  refine (matmul_rows_rows_apply dot_S4x256_S4096x256_S4x4096_1_1_0_0_n_n rfl rfl rfl rfl dot_lhs0 dot_rhs0 none _ _ c r).trans ?_
  refine Finset.sum_congr rfl fun k _ => ?_
  rw [normalised_apply, shapeCast_self]

end Cert.KernelIdeal.SimValue

end
-- ==== Proof.FinalIdeal.lean ====
/-
  From blocks to arrays: what the two 4×16384 results hold after the call, as functions of the prototype means and the
  activations the call finds.
  Point t of the grid stages rows 4096·t … 4096·t + 4095 of the activations and the whole 4×256 prototype means, and
  writes back columns 4096·t … 4096·t + 4095 of the result. So entry (c, b) of the result is written by the point
  b / 4096, from row b of the activations: it is Σ_k P[c, k] · unit(row b of X)_k. The four blocks tile the result.
-/
import proofs.«124243_j46462956208617_2_alg».proof.Proof.SimIdeal
import proofs.«124243_j46462956208617_2_alg».proof.Proof.PayIdeal
import Idealize.ShloMosaic.Lib.Pipeline.Value

noncomputable section

namespace Cert.KernelIdeal.SimValue

open Cert.KernelIdeal Cert.KernelIdeal.Gen Cert.KernelIdeal.Sim
open Idealize.ShloMosaic Idealize.ShloMosaic.TcCoe Idealize.ShloMosaic.ValueIdx Cert.SimMath
open Idealize.SL Idealize.SL.Sem
open Idealize.ShloMosaic.Pipeline (Dat Cfg Window)

variable (m : (ℓ : Loc nD τ sig) → Buf (Elt Ideal) ℓ)

theorem zeros : (![0, 0] : Fin 2 → Nat) = fun _ => 0 := funext fun a => by fin_cases a <;> rfl

/-- The whole result: entry (c, b) is the dot product of row c of the prototype means with the normalised row b of
    the activations. -/
def simArr (P : S4x256.Idx → EReal) (X : S16384x256.Idx → EReal) : S4x16384.Idx → EReal :=
  fun i => ∑ k : Fin 256, P (ix2 (⟨(i 0).val, (i 0).isLt⟩ : Fin 4) k) * unit (row X (⟨(i 1).val, (i 1).isLt⟩ : Fin 16384)) k

theorem simArr_apply (P : S4x256.Idx → EReal) (X : S16384x256.Idx → EReal) (c : Fin 4) (b : Fin 16384) :
    simArr P X (ix2 c b) = ∑ k : Fin 256, P (ix2 c k) * unit (row X b) k := rfl

/-- The printed index maps over the grid: the activation windows move down the rows with the point, the prototype
    means stay, the result windows move along the columns with the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- WHAT POINT `t` WRITES BACK into result window 4 is block `t` of `simArr` of the prototype means and the
    activations the call finds. -/
theorem flushed4_eq (c : Dev nD) (t : Fin cfg0.N) :
    (data m 0 c).flushed 4 t
      = ((cfg0.win 4).blk t).view.read (Elt Ideal) (simArr (atEntry m c main_v12) (atEntry m c main_arg0)) := by
  show (cfg0.win 4).cut (grid0.coords t) ((data m 0 c).after 4 t) = _
  rw [after_4]
  unfold simPath
  rw [View.canon_unit_zero zeros]
  simp only [View.ld_unit_zero (S := S4096x256) zeros, View.ld_unit_zero (S := S4x256) zeros]
  obtain ⟨e00, e01, e10, e11, e20, e21, e30, e31, e40, e41, e50, e51⟩ := idx_facts t
  have ht : t.val < 4 := by have h := t.isLt; have hN : cfg0.N = 4 := N_0; omega
  funext y
  obtain ⟨q, r, rfl⟩ : ∃ (q : Fin 4) (r : Fin 4096), y = ix2 q r := ⟨y 0, y 1, eq_ix2 y⟩
  show k0_pay1 (F := Ideal) (blockOf m c 0 t) (blockOf m c 2 t) (ix2 q r)
    = simArr (atEntry m c main_v12) (atEntry m c main_arg0) (((cfg0.win 4).blk t).view.emb (ix2 q r))
  refine (pay1_apply (blockOf m c 0 t) (blockOf m c 2 t) q r).trans ?_
  have hemb : ((cfg0.win 4).blk t).view.emb (ix2 q r) = ix2 q (⟨t.val * 4096 + r.val, by have := r.isLt; omega⟩ : Fin 16384) := by
    funext a; apply Fin.ext
    match a with
    | ⟨0, _⟩ => show win0_4.index t (0 : Fin 2) * 4 + 1 * q.val = q.val; omega
    | ⟨1, _⟩ => show win0_4.index t (1 : Fin 2) * 4096 + 1 * r.val = t.val * 4096 + r.val; omega
  rw [hemb, simArr_apply]
  refine Finset.sum_congr rfl fun k _ => ?_
  have hP : blockOf m c 2 t (ix2 q k) = atEntry m c main_v12 (ix2 q k) := by
    show atEntry m c main_v12 (((cfg0.win 2).blk t).view.emb (ix2 q k)) = _
    refine congrArg _ (funext fun a => Fin.ext ?_)
    match a with
    | ⟨0, _⟩ => show win0_2.index t (0 : Fin 2) * 4 + 1 * q.val = q.val; omega
    | ⟨1, _⟩ => show win0_2.index t (1 : Fin 2) * 256 + 1 * k.val = k.val; omega
  have hX : row (blockOf m c 0 t) r = row (atEntry m c main_arg0) (⟨t.val * 4096 + r.val, by have := r.isLt; omega⟩ : Fin 16384) := by
    funext j
    show atEntry m c main_arg0 (((cfg0.win 0).blk t).view.emb (ix2 r j)) = atEntry m c main_arg0 (ix2 _ j)
    refine congrArg _ (funext fun a => Fin.ext ?_)
    match a with
    | ⟨0, _⟩ => show win0_0.index t (0 : Fin 2) * 4096 + 1 * r.val = t.val * 4096 + r.val; omega
    | ⟨1, _⟩ => show win0_0.index t (1 : Fin 2) * 256 + 1 * j.val = j.val; omega
  rw [hP, hX]

/-- An index of result 4's array is in point `t`'s block iff each coordinate is in the block's range. -/
theorem mem_blk4 (t : Fin cfg0.N) (i : S4x16384.Idx) :
    i ∈ ((cfg0.win 4).blk t).view.set ↔ ∀ a : Fin 2, win0_4.index t a * S4x4096.size a ≤ (i a).val ∧ (i a).val < win0_4.index t a * S4x4096.size a + S4x4096.size a := by
  show i ∈ ((View.whole main_v26_0).slice (win0_4.rect t)).set ↔ _
  rw [View.set_slice_whole, Rect.mem_set_unit]
  exact Iff.rfl

/-- Every entry of result 4 is in the block of the point its column falls in. -/
theorem cover4 (i : S4x16384.Idx) :
    ∃ t : Fin cfg0.N, (cfg0.win 4).flush t = true ∧ i ∈ ((cfg0.win 4).blk t).view.set := by
  have h0 : (i 0).val < 4 := (i 0).isLt
  have h1 : (i 1).val < 16384 := (i 1).isLt
  let t : Fin cfg0.N := ⟨(i 1).val / 4096, by rw [show cfg0.N = 4 from N_0]; omega⟩
  obtain ⟨e00, e01, e10, e11, e20, e21, e30, e31, e40, e41, e50, e51⟩ := idx_facts t
  have htv : t.val = (i 1).val / 4096 := rfl
  refine ⟨t, flush0_4 t, ?_⟩
  rw [mem_blk4]
  intro a
  match a with
  | ⟨0, _⟩ => show win0_4.index t (0 : Fin 2) * 4 ≤ (i 0).val ∧ (i 0).val < win0_4.index t (0 : Fin 2) * 4 + 4; omega
  | ⟨1, _⟩ => show win0_4.index t (1 : Fin 2) * 4096 ≤ (i 1).val ∧ (i 1).val < win0_4.index t (1 : Fin 2) * 4096 + 4096; omega

/-- THE ARRAY of result 4 after the call. -/
theorem final4 (c : Dev nD) :
    (data m 0 c).arrAt 4 cfg0.N = simArr (atEntry m c main_v12) (atEntry m c main_arg0) :=
  (data m 0 c).arrAt_eq_of_cover 4 _ (fun t _ => flushed4_eq m c t) cover4

/-- WHAT POINT `t` WRITES BACK into result window 5 is block `t` of `simArr` of the prototype means and the
    activations the call finds. -/
theorem flushed5_eq (c : Dev nD) (t : Fin cfg0.N) :
    (data m 0 c).flushed 5 t
      = ((cfg0.win 5).blk t).view.read (Elt Ideal) (simArr (atEntry m c main_v25) (atEntry m c main_arg1)) := by
  show (cfg0.win 5).cut (grid0.coords t) ((data m 0 c).after 5 t) = _
  rw [after_5]
  unfold simGeno
  rw [View.canon_unit_zero zeros]
  simp only [View.ld_unit_zero (S := S4096x256) zeros, View.ld_unit_zero (S := S4x256) zeros]
  obtain ⟨e00, e01, e10, e11, e20, e21, e30, e31, e40, e41, e50, e51⟩ := idx_facts t
  have ht : t.val < 4 := by have h := t.isLt; have hN : cfg0.N = 4 := N_0; omega
  funext y
  obtain ⟨q, r, rfl⟩ : ∃ (q : Fin 4) (r : Fin 4096), y = ix2 q r := ⟨y 0, y 1, eq_ix2 y⟩
  show k0_pay2 (F := Ideal) (blockOf m c 1 t) (blockOf m c 3 t) (ix2 q r)
    = simArr (atEntry m c main_v25) (atEntry m c main_arg1) (((cfg0.win 5).blk t).view.emb (ix2 q r))
  refine (pay2_apply (blockOf m c 1 t) (blockOf m c 3 t) q r).trans ?_
  have hemb : ((cfg0.win 5).blk t).view.emb (ix2 q r) = ix2 q (⟨t.val * 4096 + r.val, by have := r.isLt; omega⟩ : Fin 16384) := by
    funext a; apply Fin.ext
    match a with
    | ⟨0, _⟩ => show win0_5.index t (0 : Fin 2) * 4 + 1 * q.val = q.val; omega
    | ⟨1, _⟩ => show win0_5.index t (1 : Fin 2) * 4096 + 1 * r.val = t.val * 4096 + r.val; omega
  rw [hemb, simArr_apply]
  refine Finset.sum_congr rfl fun k _ => ?_
  have hP : blockOf m c 3 t (ix2 q k) = atEntry m c main_v25 (ix2 q k) := by
    show atEntry m c main_v25 (((cfg0.win 3).blk t).view.emb (ix2 q k)) = _
    refine congrArg _ (funext fun a => Fin.ext ?_)
    match a with
    | ⟨0, _⟩ => show win0_3.index t (0 : Fin 2) * 4 + 1 * q.val = q.val; omega
    | ⟨1, _⟩ => show win0_3.index t (1 : Fin 2) * 256 + 1 * k.val = k.val; omega
  have hX : row (blockOf m c 1 t) r = row (atEntry m c main_arg1) (⟨t.val * 4096 + r.val, by have := r.isLt; omega⟩ : Fin 16384) := by
    funext j
    show atEntry m c main_arg1 (((cfg0.win 1).blk t).view.emb (ix2 r j)) = atEntry m c main_arg1 (ix2 _ j)
    refine congrArg _ (funext fun a => Fin.ext ?_)
    match a with
    | ⟨0, _⟩ => show win0_1.index t (0 : Fin 2) * 4096 + 1 * r.val = t.val * 4096 + r.val; omega
    | ⟨1, _⟩ => show win0_1.index t (1 : Fin 2) * 256 + 1 * j.val = j.val; omega
  rw [hP, hX]

/-- An index of result 5's array is in point `t`'s block iff each coordinate is in the block's range. -/
theorem mem_blk5 (t : Fin cfg0.N) (i : S4x16384.Idx) :
    i ∈ ((cfg0.win 5).blk t).view.set ↔ ∀ a : Fin 2, win0_5.index t a * S4x4096.size a ≤ (i a).val ∧ (i a).val < win0_5.index t a * S4x4096.size a + S4x4096.size a := by
  show i ∈ ((View.whole main_v26_1).slice (win0_5.rect t)).set ↔ _
  rw [View.set_slice_whole, Rect.mem_set_unit]
  exact Iff.rfl

/-- Every entry of result 5 is in the block of the point its column falls in. -/
theorem cover5 (i : S4x16384.Idx) :
    ∃ t : Fin cfg0.N, (cfg0.win 5).flush t = true ∧ i ∈ ((cfg0.win 5).blk t).view.set := by
  have h0 : (i 0).val < 4 := (i 0).isLt
  have h1 : (i 1).val < 16384 := (i 1).isLt
  let t : Fin cfg0.N := ⟨(i 1).val / 4096, by rw [show cfg0.N = 4 from N_0]; omega⟩
  obtain ⟨e00, e01, e10, e11, e20, e21, e30, e31, e40, e41, e50, e51⟩ := idx_facts t
  have htv : t.val = (i 1).val / 4096 := rfl
  refine ⟨t, flush0_5 t, ?_⟩
  rw [mem_blk5]
  intro a
  match a with
  | ⟨0, _⟩ => show win0_5.index t (0 : Fin 2) * 4 ≤ (i 0).val ∧ (i 0).val < win0_5.index t (0 : Fin 2) * 4 + 4; omega
  | ⟨1, _⟩ => show win0_5.index t (1 : Fin 2) * 4096 ≤ (i 1).val ∧ (i 1).val < win0_5.index t (1 : Fin 2) * 4096 + 4096; omega

/-- THE ARRAY of result 5 after the call. -/
theorem final5 (c : Dev nD) :
    (data m 0 c).arrAt 5 cfg0.N = simArr (atEntry m c main_v25) (atEntry m c main_arg1) :=
  (data m 0 c).arrAt_eq_of_cover 5 _ (fun t _ => flushed5_eq m c t) cover5

end Cert.KernelIdeal.SimValue

end
-- ==== Proof.RefCm.lean ====
/-
  The reference's per-class mean similarities read at an entry, on the extended reals.
  For each modality the reference normalises the rows of the activations and of the prototype bank laid flat
  (2048 rows: prototype p of class c is row 512·c + p), multiplies the normalised activations with the transposed
  normalised bank, regroups the 2048 columns as 4 classes × 512 prototypes, sums over the prototypes and divides by 512.
-/
import proofs.«124243_j46462956208617_2_alg».proof.Proof.Gen.ReferenceIdeal.Read
import proofs.«124243_j46462956208617_2_alg».proof.Proof.SimMath

noncomputable section

namespace Cert.SimRef

open Cert.ReferenceIdeal Cert.ReferenceIdeal.Read
open Idealize.ShloMosaic Idealize.ShloMosaic.ValueIdx Cert.SimMath

/-- The flat row of prototype `p` of class `c`. -/
def proto (c : Fin 4) (p : Fin 512) : Fin 2048 := ⟨c.val * 512 + p.val, by have := c.isLt; have := p.isLt; omega⟩

/-! ## The first modality (arguments 0 and 2) -/

/-- The reference's normalised activations at (b, d). -/
theorem actP_apply (x : (⟨S16384x256, .f32⟩ : BufTy).Contents (Elt Ideal)) (b : Fin 16384) (d : Fin 256) :
    val_main_v16 (F := Ideal) x (ix2 b d) = unit (row x b) d := by
  have e : ∀ k, idx_main_v10 (idx_main_v11 (idx_main_v15 (ix2 b d))) k = ix2 b k := fun k =>
    funext fun a => Fin.ext (by match a with | ⟨0, _⟩ => rfl | ⟨1, _⟩ => rfl)
  rw [val_main_v16_apply, val_main_v15_apply, val_main_v14_apply, val_main_v12_apply,
    val_main_v11_apply, val_main_v10_apply, val_main_v13_apply, val_main_cst_2_apply, val_main_cst_1_apply]
  simp only [val_main_v9_apply, e, Ideal.hostDivf_def, Ideal.maximumf_def, Ideal.hostUnary_sqrt_def, Ideal.ofBits_def,
    Ideal.mulf_def, Ideal.ofBits_zero_f32, zero_add]
  rfl

/-- The reference's normalised prototypes, laid flat, at (j, d). -/
theorem bankP_apply (y : (⟨S4x512x256, .f32⟩ : BufTy).Contents (Elt Ideal)) (j : Fin 2048) (d : Fin 256) :
    val_main_v8 (F := Ideal) y (ix2 j d) = unit (row (val_main_v0 (F := Ideal) y) j) d := by
  have e : ∀ k, idx_main_v2 (idx_main_v3 (idx_main_v7 (ix2 j d))) k = ix2 j k := fun k =>
    funext fun a => Fin.ext (by match a with | ⟨0, _⟩ => rfl | ⟨1, _⟩ => rfl)
  rw [val_main_v8_apply, val_main_v7_apply, val_main_v6_apply, val_main_v4_apply,
    val_main_v3_apply, val_main_v2_apply, val_main_v5_apply, val_main_cst_0_apply, val_main_cst_apply]
  simp only [val_main_v1_apply, e, Ideal.hostDivf_def, Ideal.maximumf_def, Ideal.hostUnary_sqrt_def, Ideal.ofBits_def,
    Ideal.mulf_def, Ideal.ofBits_zero_f32, zero_add]
  rfl

/-- The reference's per-class mean similarity at (b, c): the mean over the class's 512 prototypes of the dot
    products of the normalised row b with the normalised prototypes. -/
theorem cmP_apply (x : (⟨S16384x256, .f32⟩ : BufTy).Contents (Elt Ideal)) (y : (⟨S4x512x256, .f32⟩ : BufTy).Contents (Elt Ideal))
    (b : Fin 16384) (c : Fin 4) :
    val_main_v42 (F := Ideal) x y (ix2 b c)
      = Ideal.div (∑ p : Fin 512, ∑ d : Fin 256, unit (row x b) d * unit (row (val_main_v0 (F := Ideal) y) (proto c p)) d)
          ((512 : ℝ) : EReal) := by
  have e1 : ∀ p : Fin 512, idx_main_v19 (idx_main_v40 (ix2 b c) p) = ix2 b (proto c p) := fun p =>
    funext fun a => Fin.ext (by
      have hb := b.isLt; have hc := c.isLt; have hp := p.isLt
      match a with
      | ⟨0, _⟩ => show ((b.val * 4 + c.val) * 512 + p.val) / 2048 = b.val; omega
      | ⟨1, _⟩ => show ((b.val * 4 + c.val) * 512 + p.val) % 2048 = c.val * 512 + p.val; omega)
  have e2 : ∀ (j : Fin 2048) (k : Fin 256), lidx_main_v18 (ix2 b j) k = ix2 b k := fun j k =>
    funext fun a => Fin.ext (by match a with | ⟨0, _⟩ => rfl | ⟨1, _⟩ => rfl)
  have e3 : ∀ (j : Fin 2048) (k : Fin 256), idx_main_v17 (ridx_main_v18 (ix2 b j) k) = ix2 j k := fun j k =>
    funext fun a => Fin.ext (by match a with | ⟨0, _⟩ => rfl | ⟨1, _⟩ => rfl)
  rw [val_main_v42_apply, val_main_v40_apply, val_main_v41_apply, val_main_cst_8_apply, val_main_cst_7_apply]
  simp only [val_main_v19_apply, e1, val_main_v18_apply, e2, val_main_v17_apply, e3, actP_apply, bankP_apply,
    Ideal.hostDivf_def, Ideal.ofBits_def, Ideal.ofBits_zero_f32, zero_add, ofBits_512]

/-! ## The second modality (arguments 1 and 3) -/

/-- The reference's normalised activations at (b, d). -/
theorem actG_apply (x : (⟨S16384x256, .f32⟩ : BufTy).Contents (Elt Ideal)) (b : Fin 16384) (d : Fin 256) :
    val_main_v36 (F := Ideal) x (ix2 b d) = unit (row x b) d := by
  have e : ∀ k, idx_main_v30 (idx_main_v31 (idx_main_v35 (ix2 b d))) k = ix2 b k := fun k =>
    funext fun a => Fin.ext (by match a with | ⟨0, _⟩ => rfl | ⟨1, _⟩ => rfl)
  rw [val_main_v36_apply, val_main_v35_apply, val_main_v34_apply, val_main_v32_apply,
    val_main_v31_apply, val_main_v30_apply, val_main_v33_apply, val_main_cst_6_apply, val_main_cst_5_apply]
  simp only [val_main_v29_apply, e, Ideal.hostDivf_def, Ideal.maximumf_def, Ideal.hostUnary_sqrt_def, Ideal.ofBits_def,
    Ideal.mulf_def, Ideal.ofBits_zero_f32, zero_add]
  rfl

/-- The reference's normalised prototypes, laid flat, at (j, d). -/
theorem bankG_apply (y : (⟨S4x512x256, .f32⟩ : BufTy).Contents (Elt Ideal)) (j : Fin 2048) (d : Fin 256) :
    val_main_v28 (F := Ideal) y (ix2 j d) = unit (row (val_main_v20 (F := Ideal) y) j) d := by
  have e : ∀ k, idx_main_v22 (idx_main_v23 (idx_main_v27 (ix2 j d))) k = ix2 j k := fun k =>
    funext fun a => Fin.ext (by match a with | ⟨0, _⟩ => rfl | ⟨1, _⟩ => rfl)
  rw [val_main_v28_apply, val_main_v27_apply, val_main_v26_apply, val_main_v24_apply,
    val_main_v23_apply, val_main_v22_apply, val_main_v25_apply, val_main_cst_4_apply, val_main_cst_3_apply]
  simp only [val_main_v21_apply, e, Ideal.hostDivf_def, Ideal.maximumf_def, Ideal.hostUnary_sqrt_def, Ideal.ofBits_def,
    Ideal.mulf_def, Ideal.ofBits_zero_f32, zero_add]
  rfl

/-- The reference's per-class mean similarity at (b, c): the mean over the class's 512 prototypes of the dot
    products of the normalised row b with the normalised prototypes. -/
theorem cmG_apply (x : (⟨S16384x256, .f32⟩ : BufTy).Contents (Elt Ideal)) (y : (⟨S4x512x256, .f32⟩ : BufTy).Contents (Elt Ideal))
    (b : Fin 16384) (c : Fin 4) :
    val_main_v90 (F := Ideal) x y (ix2 b c)
      = Ideal.div (∑ p : Fin 512, ∑ d : Fin 256, unit (row x b) d * unit (row (val_main_v20 (F := Ideal) y) (proto c p)) d)
          ((512 : ℝ) : EReal) := by
  have e1 : ∀ p : Fin 512, idx_main_v39 (idx_main_v88 (ix2 b c) p) = ix2 b (proto c p) := fun p =>
    funext fun a => Fin.ext (by
      have hb := b.isLt; have hc := c.isLt; have hp := p.isLt
      match a with
      | ⟨0, _⟩ => show ((b.val * 4 + c.val) * 512 + p.val) / 2048 = b.val; omega
      | ⟨1, _⟩ => show ((b.val * 4 + c.val) * 512 + p.val) % 2048 = c.val * 512 + p.val; omega)
  have e2 : ∀ (j : Fin 2048) (k : Fin 256), lidx_main_v38 (ix2 b j) k = ix2 b k := fun j k =>
    funext fun a => Fin.ext (by match a with | ⟨0, _⟩ => rfl | ⟨1, _⟩ => rfl)
  have e3 : ∀ (j : Fin 2048) (k : Fin 256), idx_main_v37 (ridx_main_v38 (ix2 b j) k) = ix2 j k := fun j k =>
    funext fun a => Fin.ext (by match a with | ⟨0, _⟩ => rfl | ⟨1, _⟩ => rfl)
  rw [val_main_v90_apply, val_main_v88_apply, val_main_v89_apply, val_main_cst_27_apply, val_main_cst_26_apply]
  simp only [val_main_v39_apply, e1, val_main_v38_apply, e2, val_main_v37_apply, e3, actG_apply, bankG_apply,
    Ideal.hostDivf_def, Ideal.ofBits_def, Ideal.ofBits_zero_f32, zero_add, ofBits_512]

end Cert.SimRef

end
-- ==== Proof.EntryIdeal.lean ====
/-
  What the call finds: the activations, labels and censoring flags as launched, and in the two 4×256 buffers the
  prototype means the host lines before the call compute — the bank laid flat (2048 rows), each row normalised
  (the same eleven host operations, in the same order, as the reference's normalised bank), regrouped as 4 classes ×
  512 prototypes, summed over the prototypes and divided by 512. Entry (c, k) of the means is
  (Σ_p unit(row 512·c + p of the flat bank)_k) / 512.
-/
import proofs.«124243_j46462956208617_2_alg».proof.Proof.SimIdeal
import proofs.«124243_j46462956208617_2_alg».proof.Proof.RefCm
import Idealize.ShloMosaic.Lib.StableHlo.Run
import Idealize.ShloMosaic.Lib.Pipeline.Value
import Idealize.ShloMosaic.PureOps.Ideal.Laws

noncomputable section

namespace Cert.KernelIdeal.SimValue

open Cert.KernelIdeal Cert.KernelIdeal.Gen Cert.KernelIdeal.Sim
open Idealize.ShloMosaic Idealize.ShloMosaic.TcCoe Idealize.ShloMosaic.ValueIdx Cert.SimMath Cert.SimRef
open Idealize.SL Idealize.SL.Sem Idealize.ShloMosaic.StableHlo

variable (m : (ℓ : Loc nD τ sig) → Buf (Elt Ideal) ℓ)

/-- The prototype means of a bank: the normalised flat bank regrouped by class, summed over a class's prototypes,
    divided by 512. -/
def protoMean (nb : FVec Ideal S2048x256 .f32) : FVec Ideal S4x256 .f32 :=
  Host.divf (F := Ideal)
    (Host.reduceAdd (F := Ideal) (shapeCast S4x512x256 nb Facts₀.shapeCasts_S2048x256_S4x512x256)
      (constant (F := Ideal) S_ .f32 0x00000000#32) Facts₀.reducesTo_S4x512x256_S4x256_d1 Facts₀.h_S_)
    (broadcastInDim S4x256 ![] Facts₀.bcast_S_S4x256 (constant (F := Ideal) S_ .f32 0x44000000#32))

/-- Entry (c, k) of the prototype means. -/
theorem protoMean_apply (nb : FVec Ideal S2048x256 .f32) (c : Fin 4) (k : Fin 256) :
    protoMean nb (ix2 c k) = Ideal.div (∑ p : Fin 512, nb (ix2 (proto c p) k)) ((512 : ℝ) : EReal) := by
  unfold protoMean
  show Ideal.div (Host.reduceAdd (F := Ideal) _ _ Facts₀.reducesTo_S4x512x256_S4x256_d1 Facts₀.h_S_ (ix2 c k))
    (broadcastInDim S4x256 ![] Facts₀.bcast_S_S4x256 (constant (F := Ideal) S_ .f32 0x44000000#32) (ix2 c k)) = _
  rw [broadcastInDim_apply _ Facts₀.bcast_S_S4x256 _ (ix2 c k) ix0 (fun a => a.elim0)]
  simp only [Host.reduceAdd, Ideal.hostReduceAdd_def]
  rw [Ideal.hostReduceAdd_single Facts₀.reducesTo_S4x512x256_S4x256_d1 (by decide)]
  show Ideal.div (Ideal.ofBits .f32 0x00000000#32 + _) (Ideal.ofBits .f32 0x44000000#32) = _
  rw [Ideal.ofBits_zero_f32, zero_add, ofBits_512]
  refine congrArg (fun s => Ideal.div s ((512 : ℝ) : EReal)) (Finset.sum_congr rfl fun p _ => ?_)
  refine shapeCast_apply nb Facts₀.shapeCasts_S2048x256_S4x512x256 _ (ix2 (proto c p) k) ?_
  rewrite [Shape.rowMajor_val_two, Shape.rowMajor_val_three]
  rfl

/-! ## The buffers as the call finds them -/

/-- No host line before the call writes an argument: the call finds each as launched. -/
theorem entry_arg0 (c : Dev nD) : atEntry m c main_arg0 = m ((c : Thread nD τ).loc main_arg0) := by
  show StableHlo.after hostOps0 (fun b => m (c, b)) (Proc.devRef .tc main_arg0) = _
  after_results_simp <;> rfl
theorem entry_arg1 (c : Dev nD) : atEntry m c main_arg1 = m ((c : Thread nD τ).loc main_arg1) := by
  show StableHlo.after hostOps0 (fun b => m (c, b)) (Proc.devRef .tc main_arg1) = _
  after_results_simp <;> rfl
theorem entry_arg4 (c : Dev nD) : atEntry m c main_arg4 = m ((c : Thread nD τ).loc main_arg4) := by
  show StableHlo.after hostOps0 (fun b => m (c, b)) (Proc.devRef .tc main_arg4) = _
  after_results_simp <;> rfl
theorem entry_arg5 (c : Dev nD) : atEntry m c main_arg5 = m ((c : Thread nD τ).loc main_arg5) := by
  show StableHlo.after hostOps0 (fun b => m (c, b)) (Proc.devRef .tc main_arg5) = _
  after_results_simp <;> rfl

/-- The first prototype-mean buffer holds the means of the first bank, normalised exactly as the reference
    normalises it (the same operations in the same order). -/
theorem entry_meanP (c : Dev nD) :
    atEntry m c main_v12 = protoMean (Cert.ReferenceIdeal.Read.val_main_v8 (F := Ideal) (m ((c : Thread nD τ).loc main_arg2))) := by
  show StableHlo.after hostOps0 (fun b => m (c, b)) (Proc.devRef .tc main_v12) = _
  after_results_simp <;> rfl

/-- The second prototype-mean buffer, of the second bank. -/
theorem entry_meanG (c : Dev nD) :
    atEntry m c main_v25 = protoMean (Cert.ReferenceIdeal.Read.val_main_v28 (F := Ideal) (m ((c : Thread nD τ).loc main_arg3))) := by
  show StableHlo.after hostOps0 (fun b => m (c, b)) (Proc.devRef .tc main_v25) = _
  after_results_simp <;> rfl

end Cert.KernelIdeal.SimValue

end
-- ==== Proof.BridgeIdeal.lean ====
/-
  The bridge. (1) A result of the call, transposed, IS the reference's per-class mean similarity: entry (b, c) of
  the kernel's side is Σ_k mean_p(ŷ_{c,p,k}) · x̂_{b,k}, of the reference's side mean_p(Σ_k x̂_{b,k} · ŷ_{c,p,k}), with x̂
  the normalised row b of the activations and ŷ_{c,p} the normalised prototype p of class c; all of them real when the
  inputs are finite, so the two agree (the sum over p and the sum over k commute, division by 512 is linear).
  (2) The host lines after the call apply to the two transposed results, the labels and the censoring flags exactly
  the operations the reference applies to its two mean similarities, in the same order, and add the two losses.
-/
import proofs.«124243_j46462956208617_2_alg».proof.Proof.FinalIdeal
import proofs.«124243_j46462956208617_2_alg».proof.Proof.EntryIdeal
import proofs.«124243_j46462956208617_2_alg».proof.Proof.LibReal

noncomputable section

namespace Cert.KernelIdeal.SimValue

open Cert.KernelIdeal Cert.KernelIdeal.Gen Cert.KernelIdeal.Sim
open Idealize.ShloMosaic Idealize.ShloMosaic.TcCoe Idealize.ShloMosaic.ValueIdx Cert.SimMath Cert.SimRef Cert.LibReal
open Idealize.SL Idealize.SL.Sem Idealize.ShloMosaic.StableHlo
open Cert.ReferenceIdeal.Read (val_main_v0 val_main_v8 val_main_v20 val_main_v28 val_main_v42 val_main_v90 val_main_v136)

/-- The first modality: the transposed first result is the reference's first mean similarity. -/
theorem cm_bridgeP (a0 : FVec Ideal S16384x256 .f32) (a2 : FVec Ideal S4x512x256 .f32) (h0 : RealVec a0) (h2 : RealVec a2) :
    transpose S16384x4 [1, 0] (simArr (protoMean (val_main_v8 (F := Ideal) a2)) a0) Facts₀.transposes_S4x16384_S16384x4_1_0
      = val_main_v42 (F := Ideal) a0 a2 := by
  have hflat : RealVec (s := Cert.ReferenceIdeal.S2048x256) (φ := .f32) (val_main_v0 (F := Ideal) a2) := by
    unfold val_main_v0; exact h2.shapeCast _
  funext i
  obtain ⟨b, c, rfl⟩ : ∃ (b : Fin 16384) (c : Fin 4), i = ix2 b c := ⟨i 0, i 1, eq_ix2 i⟩
  rw [transpose_apply [1, 0] _ Facts₀.transposes_S4x16384_S16384x4_1_0 (ix2 b c) (ix2 c b)
    (fun d => match d with | ⟨0, _⟩ => rfl | ⟨1, _⟩ => rfl), simArr_apply, cmP_apply]
  simp only [protoMean_apply, bankP_apply]
  exact (mean_dot (unit (row a0 b)) (fun p => unit (row (val_main_v0 (F := Ideal) a2) (proto c p)))
    (fun d => unit_real (fun k => h0 _) d) (fun p d => unit_real (fun k => hflat _) d) (by norm_num)).symm

/-- The second modality. -/
theorem cm_bridgeG (a1 : FVec Ideal S16384x256 .f32) (a3 : FVec Ideal S4x512x256 .f32) (h1 : RealVec a1) (h3 : RealVec a3) :
    transpose S16384x4 [1, 0] (simArr (protoMean (val_main_v28 (F := Ideal) a3)) a1) Facts₀.transposes_S4x16384_S16384x4_1_0
      = val_main_v90 (F := Ideal) a1 a3 := by
  have hflat : RealVec (s := Cert.ReferenceIdeal.S2048x256) (φ := .f32) (val_main_v20 (F := Ideal) a3) := by
    unfold val_main_v20; exact h3.shapeCast _
  funext i
  obtain ⟨b, c, rfl⟩ : ∃ (b : Fin 16384) (c : Fin 4), i = ix2 b c := ⟨i 0, i 1, eq_ix2 i⟩
  rw [transpose_apply [1, 0] _ Facts₀.transposes_S4x16384_S16384x4_1_0 (ix2 b c) (ix2 c b)
    (fun d => match d with | ⟨0, _⟩ => rfl | ⟨1, _⟩ => rfl), simArr_apply, cmG_apply]
  simp only [protoMean_apply, bankG_apply]
  exact (mean_dot (unit (row a1 b)) (fun p => unit (row (val_main_v20 (F := Ideal) a3) (proto c p)))
    (fun d => unit_real (fun k => h1 _) d) (fun p d => unit_real (fun k => hflat _) d) (by norm_num)).symm

end Cert.KernelIdeal.SimValue

end
-- ==== Proof.TailIdeal.lean ====
/-
  The host lines after the call. Over ANY contents W of the buffers the call leaves, the 149 lines transpose the two
  results, and then apply to each transposed result, the labels and the censoring flags the masked similarity loss
  (the one-hot and at-or-above-label masks, the masked row sums and their quotients, the three-way selection, the two
  sums over the batch) and add the two losses. The reference applies the same operations, in the same order, to its two
  mean similarities. So where the transposed results are the reference's mean similarities the two scalars are equal.
-/
import proofs.«124243_j46462956208617_2_alg».proof.Proof.BridgeIdeal

noncomputable section

namespace Cert.KernelIdeal.SimValue

open Cert.KernelIdeal Cert.KernelIdeal.Gen Cert.KernelIdeal.Sim
open Idealize.ShloMosaic Idealize.ShloMosaic.TcCoe
open Idealize.SL Idealize.SL.Sem Idealize.ShloMosaic.StableHlo
open Idealize.ShloMosaic.ValueIdx Cert.SimMath Cert.SimRef Cert.LibReal
open Cert.ReferenceIdeal.Read (val_main_v0 val_main_v8 val_main_v20 val_main_v28 val_main_v42 val_main_v90 val_main_v136)

set_option maxRecDepth 16384 in
set_option maxHeartbeats 100000000 in
theorem tail_after (W : Valuation τ sig (Elt Ideal))
    (a0 a1 : FVec Ideal S16384x256 .f32) (a2 a3 : FVec Ideal S4x512x256 .f32) (a4 a5 : IVec S16384 32)
    (hP : transpose S16384x4 [1, 0] (W (Proc.devRef .tc main_v26_0)) Facts₀.transposes_S4x16384_S16384x4_1_0 = val_main_v42 (F := Ideal) a0 a2)
    (hG : transpose S16384x4 [1, 0] (W (Proc.devRef .tc main_v26_1)) Facts₀.transposes_S4x16384_S16384x4_1_0 = val_main_v90 (F := Ideal) a1 a3)
    (h4 : W (Proc.devRef .tc main_arg4) = a4) (h5 : W (Proc.devRef .tc main_arg5) = a5) :
    StableHlo.after (tail (F := Ideal)).flatten W (Proc.devRef .tc main_v119) = val_main_v136 (F := Ideal) a0 a1 a2 a3 a4 a5 := by
  simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28,
    List.flatten_cons, List.flatten_nil, List.cons_append, List.nil_append, List.append_nil]
  after_results_simp
  rw [hP, hG, h4, h5]
  rfl

/-- THE KERNEL'S RESULT IS THE REFERENCE'S. What the host lines after the call leave in the result buffer — over
    the call's two final arrays and the untouched labels and flags — is the reference's scalar of the launch
    contents of the six arguments, when the four float arguments are finite. -/
theorem result_eq (m : (ℓ : Loc nD τ sig) → Buf (Elt Ideal) ℓ) (c : Dev nD)
    (h0 : RealVec (s := S16384x256) (φ := .f32) (m ((c : Thread nD τ).loc main_arg0)))
    (h1 : RealVec (s := S16384x256) (φ := .f32) (m ((c : Thread nD τ).loc main_arg1)))
    (h2 : RealVec (s := S4x512x256) (φ := .f32) (m ((c : Thread nD τ).loc main_arg2)))
    (h3 : RealVec (s := S4x512x256) (φ := .f32) (m ((c : Thread nD τ).loc main_arg3))) :
    Pipeline.afterTail₀ cfgs (data m) 0 (entry m) tail c main_v119
      = val_main_v136 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  have e4 : Pipeline.withArrays (cfgs (0 : Fin 1)).spec c (entry m c) (fun w => (data m 0 c).arrAt w (cfgs (0 : Fin 1)).N)
      (Proc.devRef .tc main_v26_0) = simArr (atEntry m c main_v12) (atEntry m c main_arg0) :=
    (Pipeline.withArrays_arr spec0 launch0.win.arr_inj c _ _ 4).trans (final4 m c)
  have e5 : Pipeline.withArrays (cfgs (0 : Fin 1)).spec c (entry m c) (fun w => (data m 0 c).arrAt w (cfgs (0 : Fin 1)).N)
      (Proc.devRef .tc main_v26_1) = simArr (atEntry m c main_v25) (atEntry m c main_arg1) :=
    (Pipeline.withArrays_arr spec0 launch0.win.arr_inj c _ _ 5).trans (final5 m c)
  have el : Pipeline.withArrays (cfgs (0 : Fin 1)).spec c (entry m c) (fun w => (data m 0 c).arrAt w (cfgs (0 : Fin 1)).N)
      (Proc.devRef .tc main_arg4) = m ((c : Thread nD τ).loc main_arg4) :=
    (Pipeline.withArrays_of_ne spec0 c (entry m c) _ main_arg4 (by decide : ∀ w, Pipeline.arrRef spec0 w ≠ main_arg4)).trans (entry_arg4 m c)
  have ec : Pipeline.withArrays (cfgs (0 : Fin 1)).spec c (entry m c) (fun w => (data m 0 c).arrAt w (cfgs (0 : Fin 1)).N)
      (Proc.devRef .tc main_arg5) = m ((c : Thread nD τ).loc main_arg5) :=
    (Pipeline.withArrays_of_ne spec0 c (entry m c) _ main_arg5 (by decide : ∀ w, Pipeline.arrRef spec0 w ≠ main_arg5)).trans (entry_arg5 m c)
  refine tail_after _ _ _ _ _ _ _ ?_ ?_ el ec
  · rw [e4, entry_meanP, entry_arg0]; exact cm_bridgeP _ _ h0 h2
  · rw [e5, entry_meanG, entry_arg1]; exact cm_bridgeG _ _ h1 h3

end Cert.KernelIdeal.SimValue

end
-- ==== Proof.PreReal.lean ====
/-
  The precondition, decoded: where the printed finiteness predicate is all ones, every entry of the four float
  arguments is a real number. The predicate is the conjunction of four tests, each "all entries satisfy |x| < +∞"
  (an and-reduction of the comparison bits); a conjunction of bits is one only if each is, an and-reduction is one
  only if every entry's bit is, and |x| < +∞ on the extended reals excludes exactly ±∞.
-/
import proofs.«124243_j46462956208617_2_alg».proof.Pre_finite_inputs
import proofs.«124243_j46462956208617_2_alg».proof.Proof.LibReal
import Idealize.ShloMosaic.Lib.ReduceAll
import Idealize.ShloMosaic.Lib.Affine

noncomputable section

namespace Cert.SimPre

open Cert.Pre_finite_inputs Idealize.ShloMosaic Cert.LibReal

variable [Cert.Pre_finite_inputs.Facts]

instance : Subsingleton S_.Idx := ⟨fun a b => funext fun d => d.elim0⟩

/-- One test: an array whose "all |x| < +∞" bit is one is real. -/
theorem real_of_all {s : Shape} (a : FVec Ideal s .f32) (hb : S_.BroadcastsInDim s (![] : Fin 0 → Fin s.rank))
    (axes : List (Fin s.rank)) (hr : s.ReducesTo axes S_) (hu : 0 < S_.numel) (j : S_.Idx)
    (e : Host.reduce IntOp.andi (cmpf .olt (Host.absf a) (broadcastInDim s ![] hb (constant (F := Ideal) S_ .f32 0x7F800000#32)))
      (constantI S_ 1 1#1) hr hu j = 1#1) : RealVec a := fun i =>
  isReal_of_abs_lt_inf (a i) (Host.reduce_andi_all _ _ hr hu j e i)

/-- The printed predicate all ones makes the four float arguments real. -/
theorem real_of_pre (a0 a1 : FVec Ideal S16384x256 .f32) (a2 a3 : FVec Ideal S4x512x256 .f32) (a4 a5 : IVec S16384 32)
    (h : Cert.Pre_finite_inputs.fn (F := Ideal) a0 a1 a2 a3 a4 a5 = fun _ => 1#1) :
    RealVec a0 ∧ RealVec a1 ∧ RealVec a2 ∧ RealVec a3 := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨real_of_all a0 _ _ _ _ _ h0', real_of_all a1 _ _ _ _ _ h1, real_of_all a2 _ _ _ _ _ h2, real_of_all a3 _ _ _ _ _ h3⟩

end Cert.SimPre

end
-- ==== Proof.lean ====
/-
  The certificate: the prototype-similarity kernel against its reference, on the extended reals.

  Both programs compute, for each of two modalities, the mean over a class's 512 prototypes of the cosine similarity of
  every activation row with the prototypes, and then the same masked similarity loss of those per-class means, the
  labels and the censoring flags, summed over the two modalities. The reference forms all 2048 cosine similarities of a
  row and averages them class by class; the kernel averages the normalised prototypes of a class first (on the host) and
  takes ONE dot product per class inside a pallas_call tiled over the rows. For finite inputs every normalised entry is
  a real number, the two sums commute and division by 512 is linear, so the per-class means agree; the loss after them is
  the same chain of operations on both sides.

  The three frames: each program terminates without a fault and leaves its six arguments as launched. The idealized
  kernel is the kernel's own text read at the ideal values (the ideal pass rewrote nothing).
-/
import proofs.«124243_j46462956208617_2_alg».proof.Defs
import proofs.«124243_j46462956208617_2_alg».proof.Proof.Gen.Kernel
import proofs.«124243_j46462956208617_2_alg».proof.Proof.Gen.KernelIdeal
import proofs.«124243_j46462956208617_2_alg».proof.Proof.Gen.ReferenceIdeal
import proofs.«124243_j46462956208617_2_alg».proof.Proof.Gen.Pre_finite_inputs
import proofs.«124243_j46462956208617_2_alg».proof.Proof.Gen.ReferenceIdeal.Run
import proofs.«124243_j46462956208617_2_alg».proof.Proof.Gen.ReferenceIdeal.Read
import proofs.«124243_j46462956208617_2_alg».proof.Proof.FrameBits
import proofs.«124243_j46462956208617_2_alg».proof.Proof.FrameIdeal
import proofs.«124243_j46462956208617_2_alg».proof.Proof.TailIdeal
import proofs.«124243_j46462956208617_2_alg».proof.Proof.PreReal

noncomputable section

namespace Cert.Proof

open Idealize.ShloMosaic Idealize.ShloMosaic.TcCoe Idealize.SL.Sem

/-- The kernel as printed runs to the end and keeps its arguments. -/
theorem frame_kernel : Cert.frame_Kernel := fun m ρ _ => Cert.Kernel.Sim.frame m ρ

/-- So does its reading at the ideal values. -/
theorem frame_kernelIdeal : Cert.frame_KernelIdeal := fun m ρ _ => Cert.KernelIdeal.Sim.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, keep their arguments, and end with the same scalar:
    the kernel's host lines after the call leave the reference's value (`result_eq`, under the finiteness the
    precondition gives). -/
theorem algebraic : Cert.algebraic_KernelIdeal_ReferenceIdeal := by
  intro m ρ m' ρ' hpre hagree
  refine ⟨fun c => Pipeline.afterTail₀ Cert.KernelIdeal.cfgs (Cert.KernelIdeal.Sim.data m) 0 (Cert.KernelIdeal.Sim.entry m)
    Cert.KernelIdeal.Sim.tail c Cert.KernelIdeal.main_v119, ?_, ?_⟩
  · refine (θ_run Cert.KernelIdeal.defs _ _).mono (fun r h c => ⟨?_, Cert.KernelIdeal.Sim.args_kept m r h c⟩)
      (Cert.KernelIdeal.Sim.run_main m ρ)
    exact (h c).2 Cert.KernelIdeal.main_v119 (Pipeline.mem_restRefs_of _ (by decide) (by decide))
  · refine (θ_run Cert.ReferenceIdeal.defs _ _).mono (fun r h c => ⟨?_, (h c).2⟩)
      (Cert.ReferenceIdeal.Value.run (F := Ideal) m' ρ')
    obtain ⟨e0, e1, e2, e3, e4, e5⟩ := hagree c
    obtain ⟨r0, r1, r2, r3⟩ := Cert.SimPre.real_of_pre _ _ _ _ _ _ (hpre c)
    rw [(h c).1, Cert.ReferenceIdeal.Read.val_main_v136_eq, e0, e1, e2, e3, e4, e5]
    exact (Cert.KernelIdeal.SimValue.result_eq m c r0 r1 r2 r3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
